-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S16x16 .f32) (main_arg5 : FVec F S16 .f32) (main_arg6 : FVec F S16x16 .f32) (main_arg7 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) (main_arg6 : FVec F S16x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S8x16 : Shape := ⟨2, ![8, 16]⟩
abbrev S400x10000 : Shape := ⟨2, ![400, 10000]⟩
abbrev S400x16 : Shape := ⟨2, ![400, 16]⟩
abbrev S400 : Shape := ⟨1, ![400]⟩
abbrev S400x1 : Shape := ⟨2, ![400, 1]⟩

abbrev nBuf : Space → Nat
  | .hbm => 19
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S10000x16, .f32⟩
  | .hbm, ⟨9, _⟩ => ⟨S1x16, .f32⟩
  | .hbm, ⟨10, _⟩ => ⟨S8x16, .f32⟩
  | .hbm, ⟨11, _⟩ => ⟨S1x16, .f32⟩
  | .hbm, ⟨12, _⟩ => ⟨S8x16, .f32⟩
  | .hbm, ⟨13, _⟩ => ⟨S1x16, .f32⟩
  | .hbm, ⟨14, _⟩ => ⟨S8x16, .f32⟩
  | .hbm, ⟨15, _⟩ => ⟨S10000x16, .f32⟩
  | .hbm, ⟨16, _⟩ => ⟨S10000x10000, .bf16⟩
  | .hbm, ⟨17, _⟩ => ⟨S10000x16, .f32⟩
  | .hbm, ⟨18, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S400x10000, .f32⟩
  | .local _ .vmem, ⟨4, _⟩ => ⟨S400x10000, .f32⟩
  | .local _ .vmem, ⟨5, _⟩ => ⟨S10000x16, .f32⟩
  | .local _ .vmem, ⟨6, _⟩ => ⟨S8x16, .f32⟩
  | .local _ .vmem, ⟨7, _⟩ => ⟨S16x16, .f32⟩
  | .local _ .vmem, ⟨8, _⟩ => ⟨S400x16, .f32⟩
  | .local _ .vmem, ⟨9, _⟩ => ⟨S400x16, .f32⟩
  | .local _ .vmem, ⟨10, _⟩ => ⟨S400x10000, .bf16⟩
  | .local _ .vmem, ⟨11, _⟩ => ⟨S400x10000, .bf16⟩
  | .local _ .vmem, ⟨12, _⟩ => ⟨S400x10000, .bf16⟩
  | .local _ .vmem, ⟨13, _⟩ => ⟨S400x10000, .bf16⟩
  | .local _ .vmem, ⟨14, _⟩ => ⟨S10000x16, .f32⟩
  | .local _ .vmem, ⟨15, _⟩ => ⟨S8x16, .f32⟩
  | .local _ .vmem, ⟨16, _⟩ => ⟨S16x16, .f32⟩
  | .local _ .vmem, ⟨17, _⟩ => ⟨S400x16, .f32⟩
  | .local _ .vmem, ⟨18, _⟩ => ⟨S400x16, .f32⟩
  | .local _ .vmem, ⟨19, _⟩ => ⟨S400x10000, .bf16⟩
  | .local _ .vmem, ⟨20, _⟩ => ⟨S400x10000, .bf16⟩
  | .local _ .vmem, ⟨21, _⟩ => ⟨S10000x16, .f32⟩
  | .local _ .vmem, ⟨22, _⟩ => ⟨S8x16, .f32⟩
  | .local _ .vmem, ⟨23, _⟩ => ⟨S400x16, .f32⟩
  | .local _ .vmem, ⟨24, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  shapeCasts_S10000x16_S10000x16 : S10000x16.ShapeCasts S10000x16
  inb_S8x16_S1x16_0_0 : ∀ a, (![0, 0] : Fin 2 → Nat) a + S1x16.size a ≤ S8x16.size a
  h_S1x16 : 0 < S1x16.numel
  shapeCasts_S1x16_S1x16 : S1x16.ShapeCasts S1x16
  broadcasts_S1x16_S400x16 : S1x16.Broadcasts S400x16
  inb_S16x16_S16x16_0_0 : ∀ a, (![0, 0] : Fin 2 → Nat) a + S16x16.size a ≤ S16x16.size a
  h_S16x16 : 0 < S16x16.numel
  inb_S400x16_S400x16_0_0 : ∀ a, (![0, 0] : Fin 2 → Nat) a + S400x16.size a ≤ S400x16.size a
  h_S400x16 : 0 < S400x16.numel
  shapeCasts_S400x10000_S400x10000 : S400x10000.ShapeCasts S400x10000
  reduces_S400x16_S400 : S400x16.Reduces [1] S400
  shapeCasts_S400_S400x1 : S400.ShapeCasts S400x1
  broadcasts_S400x1_S400x16 : S400x1.Broadcasts S400x16
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x16_S400x16_1_0_0_1_n_n_wf : DotDims.WF S400x16 S16x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S8x16.size a
  hwx1_2 : ∀ i : grid1.Coords, EltTy.bits .f32 = 32 ∨ (Rect.block (s := S8x16) S8x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S10000x16.size a
  hwx1_4 : ∀ i : grid1.Coords, EltTy.bits .f32 = 32 ∨ (Rect.block (s := S10000x16) S400x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x16.size a ≤ S8x16.size a
  hwx2_2 : ∀ i : grid2.Coords, EltTy.bits .f32 = 32 ∨ (Rect.block (s := S8x16) S8x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x16.size a ≤ S16x16.size a
  hwx2_3 : ∀ i : grid2.Coords, EltTy.bits .f32 = 32 ∨ (Rect.block (s := S16x16) S16x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .f32 = 32 ∨ (Rect.block (s := S10000x16) S400x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x16.size a ≤ S8x16.size a
  hwx3_2 : ∀ i : grid3.Coords, EltTy.bits .f32 = 32 ∨ (Rect.block (s := S8x16) S8x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x16_S400x16_1_0_0_1_n_n : DotDims S400x16 S16x16 S400x16 where
  lhsContracting := [1]
  rhsContracting := [0]
  lhsNonContracting := [0]
  rhsNonContracting := [1]
  lhsBatch := []
  rhsBatch := []
  wf := dot_S400x16_S16x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S400x16.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7_1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_0) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S8x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v7_1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S8x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S10000x16, .f32⟩
  | .hbm, ⟨9, _⟩ => ⟨S10000x16, .f32⟩
  | .hbm, ⟨10, _⟩ => ⟨S1x16, .f32⟩
  | .hbm, ⟨11, _⟩ => ⟨S10000x16, .f32⟩
  | .hbm, ⟨12, _⟩ => ⟨S10000x16, .f32⟩
  | .hbm, ⟨13, _⟩ => ⟨S_, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S1x16, .f32⟩
  | .hbm, ⟨19, _⟩ => ⟨S10000x16, .f32⟩
  | .hbm, ⟨20, _⟩ => ⟨S10000x16, .f32⟩
  | .hbm, ⟨21, _⟩ => ⟨S_, .f32⟩
  | .hbm, ⟨22, _⟩ => ⟨S10000x16, .f32⟩
  | .hbm, ⟨23, _⟩ => ⟨S10000x16, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.KernelRun.lean ====
import proofs.«160933_g45140106281004_cont_8to1c4_826_4_alg».proof.Proof.Gen.KernelIdeal.Frame

/-!
The idealized kernel's run, with its result kept.

The program is four kernel launches with one stretch of host operations after the first. Its buffers' contents at
the five segment boundaries form a chain: after a launch, the launch's arrays hold what its write-backs leave and
every other buffer is as before; after the host stretch, the buffers hold the stretch's operations applied. Every
weakly fair execution terminates without a fault in a state whose unscoped buffers are the last link of that chain
(`Gen.W5`). Read at the eight arguments this is the frame; read at the result buffer as well, it says where the
value of the program is to be found: the array the last launch's write-backs leave.
-/

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the eight arguments as launched. -/
theorem run : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.KernelRun

end
-- ==== Proof.Spec.lean ====
import Idealize.ShloMosaic.Lib.ValueIdx

/-!
The function both programs compute, on the extended reals.

A graph convolution over `n` nodes takes node features `S : n × h`, aggregates them along the dense adjacency
`A : n × n` and adds a bias to every row: `A · S + b` (stated for any `a` rows of `A`, so that it also speaks of a
slab of rows). Three such layers are chained, the first two followed by the
rectifier `max · 0` and a small dense map `· W`, and the last by a log-softmax along each row:

  `y = A · (relu (A · (relu (A · (x · W₁) + b₁) · W₂) + b₂) · W₃) + b₃`,   `out (p, q) = y (p, q) − logsumexp_q y (p, ·)`.

The log-sum-exp of a row is taken stably, through the row's maximum `μ`: `log (∑ exp (y − μ)) + μ`. There are two
ways to put the pieces together, `y − (L + μ)` and `(y − μ) − L` with `L = log ∑ exp (y − μ)`; they agree wherever
`y`, `μ` and `L` are real numbers, and only there in general (at infinities the extended reals' sum is not
cancellative), so both arrangements are named here.
-/

noncomputable section

namespace Cert.Gcn

open Idealize.ShloMosaic Idealize.ShloMosaic.ValueIdx

/-- An `a × b` matrix of extended reals: a function of the rank-2 index. -/
abbrev Mat (a b : Nat) : Type := (⟨2, ![a, b]⟩ : Shape).Idx → EReal
/-- A vector of `b` extended reals. -/
abbrev Row (b : Nat) : Type := (⟨1, ![b]⟩ : Shape).Idx → EReal

/-- The matrix product: `(A · B) (p, q) = ∑ k, A (p, k) · B (k, q)`. -/
def mm {a k b : Nat} (A : Mat a k) (B : Mat k b) : Mat a b :=
  fun j => ∑ t : Fin k, A (ix2 (j 0) t) * B (ix2 t (j 1))

/-- One aggregation: `A · S + bias`, the bias `bias q` added to every entry of column `q`. -/
def agg {a n h : Nat} (A : Mat a n) (S : Mat n h) (bias : Row h) : Mat a h :=
  fun j => mm A S j + bias (ix1 (j 1))

/-- The rectifier, entry by entry. -/
def relu {a b : Nat} (M : Mat a b) : Mat a b := fun j => max (M j) 0

/-- The last layer's values before the log-softmax, as one function of the eight arguments. -/
def logits (x : Mat 10000 128) (adj : Mat 10000 10000) (W1 : Mat 128 16) (b1 : Row 16) (W2 : Mat 16 16) (b2 : Row 16)
    (W3 : Mat 16 16) (b3 : Row 16) : Mat 10000 16 :=
  agg adj (mm (relu (agg adj (mm (relu (agg adj (mm x W1) b1)) W2) b2)) W3) b3

/-- The maximum of row `p`, folded from `−∞`. -/
def rowMax {a b : Nat} (Y : Mat a b) (p : Fin a) : EReal :=
  (Finset.univ : Finset (Fin b)).fold max ⊥ (fun q => Y (ix2 p q))

/-- `log ∑_q exp (Y (p, q) − μ_p)`, `μ_p` the row's maximum. -/
def rowLse {a b : Nat} (Y : Mat a b) (p : Fin a) : EReal :=
  Ideal.log (∑ q : Fin b, Ideal.exp (Y (ix2 p q) - rowMax Y p))

/-- The log-softmax as `y − (L + μ)`. -/
def logSoftmaxSum {a b : Nat} (Y : Mat a b) : Mat a b :=
  fun j => Y j - (rowLse Y (j 0) + rowMax Y (j 0))

/-- The log-softmax as `(y − μ) − L`. -/
def logSoftmaxShift {a b : Nat} (Y : Mat a b) : Mat a b :=
  fun j => (Y j - rowMax Y (j 0)) - rowLse Y (j 0)

end Cert.Gcn

end
-- ==== Proof.LibPlainDot.lean ====
import Idealize.ShloMosaic.Lib.ValueIdx
import Idealize.ShloMosaic.Lib.Pipeline.Value
import Idealize.ShloMosaic.PureOps.Ideal.Laws

/-!
A plain matrix product `[M, K] × [K, N]` read at an index, on the extended reals: the kernel's `tpu.matmul` into a
zero accumulator and the host's `dot_general` are both `∑ k, x (p, k) · W (k, q)` at `(p, q)`, with the sum
over the literal `Fin K`. Stated for the dimension numbers `DotDims.plain M K N`, which every product of the two
programs has.
-/

noncomputable section

namespace Idealize.ShloMosaic.PlainDot

open Idealize.ShloMosaic Idealize.ShloMosaic.ValueIdx

variable {φ₁ φ₂ : FTy}

theorem lhs_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem rhs_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product, over the literal `Fin K`. -/
theorem contr_sum (M K N : Nat) (x : (⟨2, ![M, K]⟩ : Shape).Idx → EReal) (W : (⟨2, ![K, N]⟩ : Shape).Idx → EReal)
    (p : Fin M) (q : Fin N) :
    ∑ k : (DotDims.plain M K N).contr.Idx,
        x ((DotDims.plain M K N).lhsIdx (ix2 p q) k) * W ((DotDims.plain M K N).rhsIdx (ix2 p q) k)
      = ∑ k : Fin K, x (ix2 p k) * W (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact rhs_col M K N _ _)
  rw [el, er]

/-- A `tpu.matmul` into the zero accumulator, at `(p, q)`. -/
theorem matmul_zero_apply (M K N : Nat) (prec : Option ContractPrecision)
    (x : FVec Ideal ⟨2, ![M, K]⟩ φ₁) (W : FVec Ideal ⟨2, ![K, N]⟩ φ₂) (p : Fin M) (q : Fin N) :
    FloatOps.matmul (DotDims.plain M K N) prec x W (constant ⟨2, ![M, N]⟩ .f32 0x00000000#32) (ix2 p q)
      = ∑ k : Fin K, x (ix2 p k) * W (ix2 k q) := by
  rw [Ideal.matmul_constant_zero_apply]
  exact contr_sum M K N x W p q

/-- The host's `dot_general`, at `(p, q)`. -/
theorem dotGeneral_apply (M K N : Nat) (prec : Option ContractPrecision) (sched : HostSchedule)
    (x : FVec Ideal ⟨2, ![M, K]⟩ φ₁) (W : FVec Ideal ⟨2, ![K, N]⟩ φ₂) (p : Fin M) (q : Fin N) :
    FloatOps.dotGeneral (DotDims.plain M K N) prec sched x W (ix2 p q) = ∑ k : Fin K, x (ix2 p k) * W (ix2 k q) := by
  rw [Ideal.dotGeneral_apply]
  exact contr_sum M K N x W p q

end Idealize.ShloMosaic.PlainDot

end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.Payloads.lean ====
import proofs.«160933_g45140106281004_cont_8to1c4_826_4_alg».proof.Proof.Gen.KernelIdeal.Skeleton
import proofs.«160933_g45140106281004_cont_8to1c4_826_4_alg».proof.Proof.Spec
import proofs.«160933_g45140106281004_cont_8to1c4_826_4_alg».proof.Proof.LibPlainDot
import proofs.«160933_g45140106281004_cont_8to1c4_826_4_alg».proof.Proof.LibColumn
import Idealize.ShloMosaic.Lib.ValueIdx
import Idealize.ShloMosaic.Lib.ValueLayout
import Idealize.ShloMosaic.Lib.Pipeline.Value
import Idealize.ShloMosaic.PureOps.Ideal.Laws

/-!
What each of the four kernel bodies computes from the blocks it loads, on the extended reals.

* The projection body multiplies the whole feature matrix by the first weight matrix.
* A hidden-layer body takes a slab `A` of 400 rows of the adjacency, the full support matrix `S`, the bias (row 0
  of an eight-row copy) and the next weight matrix `W`, and produces `relu (A · S + b) · W` for its 400 rows. The first
  hidden layer also copies its slab out unchanged (a change of float format is the identity here).
* The last body produces `y − (log ∑ exp (y − μ) + μ)` for its 400 rows, `y = A · S + b` and `μ` the row maximum.

A matrix product into a zero accumulator is the plain sum of products; a row reduction that keeps its axis and is
broadcast back reads, at `(p, q)`, the reduction of row `p`.
-/

noncomputable section

namespace Cert.KernelIdeal.Payloads

open Cert.KernelIdeal Cert.KernelIdeal.Gen Cert.Gcn
open Idealize.ShloMosaic Idealize.ShloMosaic.TcCoe Idealize.ShloMosaic.ValueIdx

variable {φ₁ φ₂ : FTy}

/-- The bias vector a one-row matrix holds. -/
def rowOf {r : Nat} (b : Mat (r + 1) 16) : Row 16 := fun i => b (ix2 (0 : Fin (r + 1)) (i 0))

/-- The pattern `0xFF800000` is `−∞`. -/
theorem ofBits_neg_inf : FloatOps.ofBits (F := Ideal) .f32 0xFF800000#32 = (⊥ : EReal) := by
  show Ideal.ofBits .f32 0xFF800000#32 = ⊥
  simp [Ideal.ofBits, Ideal.ieee]

/-- The pre-activation of a slab: `A · S` plus the bias row repeated down the rows. -/
theorem preact_apply (A : FVec Ideal S400x10000 φ₁) (S : FVec Ideal S10000x16 φ₂) (b : FVec Ideal S1x16 .f32)
    (hb : S1x16.Broadcasts S400x16) (p : Fin 400) (q : Fin 16) :
    addf (matmul dot_S400x10000_S10000x16_S400x16_1_0_0_1_n_n none A S (constant S400x16 .f32 0x00000000#32))
        (broadcastTo S400x16 b hb) (ix2 p q)
      = agg A S (rowOf (r := 0) b) (ix2 p q) := by
  refine (addf_apply _ _ _).trans ?_
  rw [broadcastTo_1b_ab_apply]
  exact congrArg (· + b (ix2 (0 : Fin 1) q)) (PlainDot.matmul_zero_apply 400 10000 16 none A S p q)

/-- A hidden layer on a slab: `relu (A · S + b) · W`. -/
theorem hidden_eq (A : FVec Ideal S400x10000 φ₁) (S : FVec Ideal S10000x16 φ₂) (b : FVec Ideal S1x16 .f32)
    (W : FVec Ideal S16x16 .f32) (hb : S1x16.Broadcasts S400x16) :
    matmul dot_S400x16_S16x16_S400x16_1_0_0_1_n_n none
        (maximumf (addf (matmul dot_S400x10000_S10000x16_S400x16_1_0_0_1_n_n none A S (constant S400x16 .f32 0x00000000#32))
            (broadcastTo S400x16 b hb)) (broadcast S400x16 (Scalar.ofBits (F := Ideal) .f32 0x00000000#32)))
        W (constant S400x16 .f32 0x00000000#32)
      = mm (relu (agg A S (rowOf (r := 0) b))) W := by
  funext j
  obtain ⟨p, q, rfl⟩ : ∃ (p : Fin 400) (q : Fin 16), j = ix2 p q := ⟨j 0, j 1, eq_ix2 j⟩
  refine (PlainDot.matmul_zero_apply 400 16 16 none _ W p q).trans ?_
  refine Finset.sum_congr rfl fun t _ => congrArg (· * W (ix2 t q)) ?_
  refine (maximumf_apply _ _ _).trans ?_
  refine congrArg₂ max (preact_apply A S b hb p t) ?_
  show Ideal.ofBits .f32 0x00000000#32 = 0
  exact Ideal.ofBits_zero_f32

/-- The maximum of each row, kept as a column: at `(p, u)` the fold of `max` over row `p` from `−∞`. -/
theorem rowMax_column_apply (y : FVec Ideal S400x16 .f32) (hred : S400x16.Reduces [1] S400) (hφ : FKind.Formats .f32)
    (hacc : (0xFF800000#32 : BitVec 32) = FKind.maximumf.neutral .f32 hφ) (hc : S400.ShapeCasts S400x1) (p : Fin 400) (u : Fin 1) :
    shapeCast S400x1 (multiReduction .maximumf [1] S400 y 0xFF800000#32 hred hφ hacc) hc (ix2 p u) = rowMax y p := by
  rw [shapeCast_a_a1_apply]
  refine (Ideal.multiReduction_maximumf_single y _ hred hφ hacc (ix1 p)).trans ?_
  unfold rowMax
  rw [ofBits_neg_inf]
  refine congrArg (Finset.univ.fold max ⊥) (funext fun k => congrArg y (funext fun ax => ?_))
  match ax with
  | ⟨0, _⟩ => rfl
  | ⟨1, _⟩ => rfl

/-- The sum of each row, kept as a column: at `(p, u)` the sum over row `p`. -/
theorem rowSum_column_apply (e : FVec Ideal S400x16 .f32) (hred : S400x16.Reduces [1] S400) (hφ : FKind.Formats .f32)
    (hacc : (0x00000000#32 : BitVec 32) = FKind.add.neutral .f32 hφ) (hc : S400.ShapeCasts S400x1) (p : Fin 400) (u : Fin 1) :
    shapeCast S400x1 (multiReduction .add [1] S400 e 0x00000000#32 hred hφ hacc) hc (ix2 p u) = ∑ k : Fin 16, e (ix2 p k) := by
  rw [shapeCast_a_a1_apply]
  refine (Ideal.multiReduction_add_single e _ hred hφ hacc (ix1 p)).trans ?_
  refine Finset.sum_congr rfl fun k _ => congrArg e (funext fun ax => ?_)
  match ax with
  | ⟨0, _⟩ => rfl
  | ⟨1, _⟩ => rfl

/-- The last layer's arrangement of the log-softmax, on any `400 × 16` block `y`: `y − (log ∑ exp (y − μ) + μ)`. -/
theorem logSoftmax_eq (y : FVec Ideal S400x16 .f32) (hred : S400x16.Reduces [1] S400) (hφ : FKind.Formats .f32)
    (hmx : (0xFF800000#32 : BitVec 32) = FKind.maximumf.neutral .f32 hφ)
    (hsm : (0x00000000#32 : BitVec 32) = FKind.add.neutral .f32 hφ)
    (hc : S400.ShapeCasts S400x1) (hb : S400x1.Broadcasts S400x16) :
    subf y (broadcastTo S400x16
        (addf (log (shapeCast S400x1 (multiReduction .add [1] S400
            (exp (subf y (broadcastTo S400x16 (shapeCast S400x1 (multiReduction .maximumf [1] S400 y 0xFF800000#32 hred hφ hmx) hc) hb)))
            0x00000000#32 hred hφ hsm) hc))
          (shapeCast S400x1 (multiReduction .maximumf [1] S400 y 0xFF800000#32 hred hφ hmx) hc)) hb)
      = logSoftmaxSum y := by
  funext j
  obtain ⟨p, q, rfl⟩ : ∃ (p : Fin 400) (q : Fin 16), j = ix2 p q := ⟨j 0, j 1, eq_ix2 j⟩
  refine (subf_apply _ _ _).trans ?_
  rw [broadcastTo_a1_ab_apply]
  refine congrArg (y (ix2 p q) - ·) ?_
  refine (addf_apply _ _ _).trans ?_
  refine congrArg₂ (· + ·) ?_ (rowMax_column_apply y hred hφ hmx hc p 0)
  show Ideal.log (shapeCast S400x1 (multiReduction (F := Ideal) .add [1] S400 _ 0x00000000#32 hred hφ hsm) hc (ix2 p (0 : Fin 1))) = rowLse y p
  rw [rowSum_column_apply]
  unfold rowLse
  refine congrArg Ideal.log (Finset.sum_congr rfl fun k _ => ?_)
  show Ideal.exp (y (ix2 p k) - broadcastTo S400x16 _ hb (ix2 p k)) = _
  rw [broadcastTo_a1_ab_apply, rowMax_column_apply]

/-! ## The four generated payloads -/

/-- The projection body: `x · W₁`. -/
theorem proj_eq (x : Vec Ideal S10000x128 .f32) (W : Vec Ideal S128x16 .f32) : k0_pay1 (F := Ideal) x W = mm x W := by
  funext j
  obtain ⟨p, q, rfl⟩ : ∃ (p : Fin 10000) (q : Fin 16), j = ix2 p q := ⟨j 0, j 1, eq_ix2 j⟩
  exact PlainDot.matmul_zero_apply 10000 128 16 none x W p q

/-- The first hidden layer's copy of its slab is the slab. -/
theorem copy_eq (A : Vec Ideal S400x10000 .f32) : k1_pay1 (F := Ideal) A = A := rfl

/-- The first hidden layer's body. -/
theorem hidden1_eq (A : Vec Ideal S400x10000 .f32) (S : Vec Ideal S10000x16 .f32) (b : Vec Ideal S1x16 .f32) (W : Vec Ideal S16x16 .f32) :
    k1_pay2 (F := Ideal) A S b W = mm (relu (agg A S (rowOf (r := 0) b))) W := by
  unfold k1_pay2
  rw [shapeCast_self, shapeCast_self]
  exact hidden_eq A S b W _

/-- The second hidden layer's body. -/
theorem hidden2_eq (A : Vec Ideal S400x10000 .bf16) (S : Vec Ideal S10000x16 .f32) (b : Vec Ideal S1x16 .f32) (W : Vec Ideal S16x16 .f32) :
    k2_pay1 (F := Ideal) A S b W = mm (relu (agg A S (rowOf (r := 0) b))) W := by
  unfold k2_pay1
  rw [shapeCast_self, shapeCast_self, shapeCast_self]
  exact hidden_eq A (truncf .bf16 S bitsLt_bf16_f32) b W _

/-- The last layer's body. -/
theorem final_eq (A : Vec Ideal S400x10000 .bf16) (S : Vec Ideal S10000x16 .f32) (b : Vec Ideal S1x16 .f32) :
    k3_pay1 (F := Ideal) A S b = logSoftmaxSum (agg A S (rowOf (r := 0) b)) := by
  unfold k3_pay1
  rw [shapeCast_self, shapeCast_self, shapeCast_self]
  refine (logSoftmax_eq _ _ _ _ _ _ _).trans ?_
  refine congrArg logSoftmaxSum (funext fun j => ?_)
  obtain ⟨p, q, rfl⟩ : ∃ (p : Fin 400) (q : Fin 16), j = ix2 p q := ⟨j 0, j 1, eq_ix2 j⟩
  exact preact_apply A (truncf .bf16 S bitsLt_bf16_f32) b _ p q

end Cert.KernelIdeal.Payloads

end
-- ==== Proof.Slab.lean ====
import proofs.«160933_g45140106281004_cont_8to1c4_826_4_alg».proof.Proof.Spec

/-!
Every stage of the network acts on the rows of the adjacency independently: row `p` of `A · S + b`, of its
rectification, of a further product `· W`, and of the row-wise log-softmax depends on row `p` of `A` only. So the
slab of rows `400 t, …, 400 t + 399` of a stage's output is that stage applied to the same slab of `A` — which is
what one grid point of a launch computes.
-/

noncomputable section

namespace Cert.Gcn

open Idealize.ShloMosaic Idealize.ShloMosaic.ValueIdx

/-- Row `400 t + p` of a `10000`-row matrix, for `t < 25` and `p < 400`. -/
def slabRow (t : Fin 25) (p : Fin 400) : Fin 10000 := ⟨400 * t.val + p.val, by have := t.isLt; have := p.isLt; omega⟩

/-- Rows `400 t, …, 400 t + 399` of a matrix with `10000` rows. -/
def slab {n : Nat} (A : Mat 10000 n) (t : Fin 25) : Mat 400 n := fun j => A (ix2 (slabRow t (j 0)) (j 1))

theorem slab_mm {k b : Nat} (A : Mat 10000 k) (B : Mat k b) (t : Fin 25) : mm (slab A t) B = slab (mm A B) t := rfl

theorem slab_agg {n h : Nat} (A : Mat 10000 n) (S : Mat n h) (bias : Row h) (t : Fin 25) :
    agg (slab A t) S bias = slab (agg A S bias) t := rfl

theorem slab_relu {b : Nat} (M : Mat 10000 b) (t : Fin 25) : relu (slab M t) = slab (relu M) t := rfl

theorem slab_logSoftmaxSum {b : Nat} (Y : Mat 10000 b) (t : Fin 25) :
    logSoftmaxSum (slab Y t) = slab (logSoftmaxSum Y) t := rfl

end Cert.Gcn

end
-- ==== Proof.Region0.lean ====
import proofs.«160933_g45140106281004_cont_8to1c4_826_4_alg».proof.Proof.Gen.KernelIdeal.Frame
import proofs.«160933_g45140106281004_cont_8to1c4_826_4_alg».proof.Proof.Payloads
import proofs.«160933_g45140106281004_cont_8to1c4_826_4_alg».proof.Proof.Slab

/-!
The projection launch: the array its write-back leaves.

One grid point, whole arrays: it loads the feature matrix and the first weight matrix and writes back their product.
-/

set_option maxRecDepth 16384

noncomputable section

namespace Cert.KernelIdeal.Region0

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps at the one point: every window at block zero. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first support matrix, `x · W₁`. -/
def G (c : Dev nD) : Mat 10000 16 := mm (V c main_arg0 : Mat 10000 128) (V c main_arg2 : Mat 128 16)

theorem read_x (c : Dev nD) (t : Fin cfg0.N) : (iblk0 V c 0 t : Mat 10000 128) = (V c main_arg0 : Mat 10000 128) := by
  obtain ⟨e0, e1, -⟩ := idx_facts t
  funext y
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem read_w (c : Dev nD) (t : Fin cfg0.N) : (iblk0 V c 1 t : Mat 128 16) = (V c main_arg2 : Mat 128 16) := by
  obtain ⟨-, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 16 + 1 * (y 1).val = (y 1).val; omega

/-- WHAT THE POINT WRITES BACK is the whole of `G`. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  rw [proj_eq, read_x V c t, read_w V c t]
  obtain ⟨-, -, -, -, e0, e1⟩ := idx_facts t
  funext y
  show G V c y = G V c (((cfg0.win 2).blk t).view.emb y)
  refine congrArg (G V c) (funext fun a => Fin.ext ?_)
  match a with
  | ⟨0, _⟩ => show (y 0).val = win0_2.index t (0 : Fin 2) * 10000 + 1 * (y 0).val; omega
  | ⟨1, _⟩ => show (y 1).val = win0_2.index t (1 : Fin 2) * 16 + 1 * (y 1).val; omega

theorem mem_blk (t : Fin cfg0.N) (i : S10000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

theorem cover (i : S10000x16.Idx) : ∃ t : Fin cfg0.N, (cfg0.win 2).flush t = true ∧ i ∈ ((cfg0.win 2).blk t).view.set := by
  have hi0 : (i 0).val < 10000 := idx2_lt0 i
  have hi1 : (i 1).val < 16 := idx2_lt1 i
  refine ⟨t0_0, flush0_2 _, ?_⟩
  obtain ⟨-, -, -, -, e0, e1⟩ := idx_facts t0_0
  rw [mem_blk]
  intro a
  match a with
  | ⟨0, _⟩ =>
    show win0_2.index t0_0 (0 : Fin 2) * 10000 ≤ (i 0).val ∧ (i 0).val < win0_2.index t0_0 (0 : Fin 2) * 10000 + 10000
    rw [e0]; omega
  | ⟨1, _⟩ =>
    show win0_2.index t0_0 (1 : Fin 2) * 16 ≤ (i 1).val ∧ (i 1).val < win0_2.index t0_0 (1 : Fin 2) * 16 + 16
    rw [e1]; omega

/-- THE FIRST SUPPORT MATRIX after the launch: `x · W₁`, of the arrays as the launch finds them. -/
theorem value (c : Dev nD) : (dat0 V c).arrAt 2 cfg0.N = G V c :=
  (dat0 V c).arrAt_eq_of_cover 2 (G V c) (fun t _ => flushed_eq V c t) (cover)

end Cert.KernelIdeal.Region0

end
-- ==== Proof.Region1.lean ====
import proofs.«160933_g45140106281004_cont_8to1c4_826_4_alg».proof.Proof.Gen.KernelIdeal.Frame
import proofs.«160933_g45140106281004_cont_8to1c4_826_4_alg».proof.Proof.Payloads
import proofs.«160933_g45140106281004_cont_8to1c4_826_4_alg».proof.Proof.Slab

/-!
Hidden layer one's launch: the array its write-backs leave.

The grid has 25 points. Point `t` loads rows `400 t, …, 400 t + 399` of the adjacency, the whole support matrix,
the whole eight-row bias array and the whole next weight matrix, and writes back the same rows of the next support
matrix: `relu (A_t · S + b) · W` for its slab `A_t`. Every stage acts row by row, so that is the slab of rows of
`relu (A · S + b) · W` over the whole adjacency, and the 25 slabs tile the 10000 rows.

This launch also writes a copy of its adjacency slab in another float format; at exact values a change of format is
the identity, so the copy ends holding the adjacency.
-/

set_option maxRecDepth 16384

noncomputable section

namespace Cert.KernelIdeal.Region1

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid point as a number below 25. -/
def pt (t : Fin cfg1.N) : Fin 25 := ⟨t.val, (show t.val < grid1.N from t.isLt).trans_eq N_1⟩

/-- The index maps over the grid: the adjacency and the outputs move down by one block of rows per point, the support
    matrix, the bias and the weights stay at block zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The function the next support matrix ends holding, of the four arrays the launch reads. -/
def G (c : Dev nD) : Mat 10000 16 :=
  mm (relu (agg (V c main_arg1 : Mat 10000 10000) (V c main_v0 : Mat 10000 16) (rowOf (r := 7) (V c main_v2 : Mat 8 16))))
    (V c main_arg4 : Mat 16 16)

/-- The adjacency block at point `t` is the slab of rows `400 t, …`. -/
theorem read_adj (c : Dev nD) (t : Fin cfg1.N) : (iblk1 V c 0 t : Mat 400 10000) = slab (V c main_arg1 : Mat 10000 10000) (pt t) := by
  obtain ⟨e0, e1, -⟩ := idx_facts t
  funext y
  show V c main_arg1 (((cfg1.win 0).blk t).view.emb y) = V c main_arg1 (ix2 (slabRow (pt t) (y 0)) (y 1))
  refine congrArg (V c main_arg1) (funext fun a => Fin.ext ?_)
  match a with
  | ⟨0, _⟩ => show win1_0.index t (0 : Fin 2) * 400 + 1 * (y 0).val = 400 * t.val + (y 0).val; omega
  | ⟨1, _⟩ => show win1_0.index t (1 : Fin 2) * 10000 + 1 * (y 1).val = (y 1).val; omega

/-- The support block is the whole support matrix. -/
theorem read_sup (c : Dev nD) (t : Fin cfg1.N) : (iblk1 V c 1 t : Mat 10000 16) = (V c main_v0 : Mat 10000 16) := by
  obtain ⟨-, -, e0, e1, -⟩ := idx_facts t
  funext y
  show V c main_v0 (((cfg1.win 1).blk t).view.emb y) = V c main_v0 y
  refine congrArg (V c main_v0) (funext fun a => Fin.ext ?_)
  match a with
  | ⟨0, _⟩ => show win1_1.index t (0 : Fin 2) * 10000 + 1 * (y 0).val = (y 0).val; omega
  | ⟨1, _⟩ => show win1_1.index t (1 : Fin 2) * 16 + 1 * (y 1).val = (y 1).val; omega

/-- The bias block is the whole eight-row bias array. -/
theorem read_bias (c : Dev nD) (t : Fin cfg1.N) : (iblk1 V c 2 t : Mat 8 16) = (V c main_v2 : Mat 8 16) := by
  obtain ⟨-, -, -, -, e0, e1, -⟩ := idx_facts t
  funext y
  show V c main_v2 (((cfg1.win 2).blk t).view.emb y) = V c main_v2 y
  refine congrArg (V c main_v2) (funext fun a => Fin.ext ?_)
  match a with
  | ⟨0, _⟩ => show win1_2.index t (0 : Fin 2) * 8 + 1 * (y 0).val = (y 0).val; omega
  | ⟨1, _⟩ => show win1_2.index t (1 : Fin 2) * 16 + 1 * (y 1).val = (y 1).val; omega

/-- The weight block is the whole weight matrix. -/
theorem read_w (c : Dev nD) (t : Fin cfg1.N) : (iblk1 V c 3 t : Mat 16 16) = (V c main_arg4 : Mat 16 16) := by
  obtain ⟨-, -, -, -, -, -, e0, e1, -⟩ := idx_facts t
  funext y
  show V c main_arg4 (((cfg1.win 3).blk t).view.emb y) = V c main_arg4 y
  refine congrArg (V c main_arg4) (funext fun a => Fin.ext ?_)
  match a with
  | ⟨0, _⟩ => show win1_3.index t (0 : Fin 2) * 16 + 1 * (y 0).val = (y 0).val; omega
  | ⟨1, _⟩ => show win1_3.index t (1 : Fin 2) * 16 + 1 * (y 1).val = (y 1).val; omega

/-- The bias the body loads, row 0 of the eight-row array, as a vector. -/
theorem rowOf_ld (x : Vec Ideal S8x16 .f32) : rowOf (r := 0) (View.ld x r1_2) = rowOf (r := 7) (x : Mat 8 16) := by
  funext i
  show x (r1_2.emb (ix2 (0 : Fin 1) (i 0))) = x (ix2 (0 : Fin 8) (i 0))
  refine congrArg x (funext fun a => Fin.ext ?_)
  rw [Rect.emb_apply]
  match a with
  | ⟨0, _⟩ => rfl
  | ⟨1, _⟩ => show 0 + 1 * (i 0).val = (i 0).val; omega

/-- WHAT POINT `t` WRITES BACK to the next support matrix is block `t` of `G`. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x16) hz, View.ld_unit_zero (S := S16x16) hz]
  rw [hidden1_eq, rowOf_ld, read_adj V c t, read_sup V c t, read_bias V c t, read_w V c t, slab_agg, slab_relu, slab_mm]
  obtain ⟨-, -, -, -, -, -, -, -, e0, e1, -⟩ := idx_facts t
  funext y
  show G V c (ix2 (slabRow (pt t) (y 0)) (y 1)) = G V c (((cfg1.win 4).blk t).view.emb y)
  refine congrArg (G V c) (funext fun a => Fin.ext ?_)
  match a with
  | ⟨0, _⟩ => show 400 * t.val + (y 0).val = win1_4.index t (0 : Fin 2) * 400 + 1 * (y 0).val; omega
  | ⟨1, _⟩ => show (y 1).val = win1_4.index t (1 : Fin 2) * 16 + 1 * (y 1).val; omega

/-- An index of the output array is in point `t`'s block iff each coordinate is in the block's range on its axis. -/
theorem mem_blk (t : Fin cfg1.N) (i : S10000x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_v7_0).slice (win1_4.rect t)).set ↔ _
  rw [View.set_slice_whole, Rect.mem_set_unit]
  exact Iff.rfl

/-- Every row belongs to the block of the point `row / 400`. -/
theorem cover (i : S10000x16.Idx) : ∃ t : Fin cfg1.N, (cfg1.win 4).flush t = true ∧ i ∈ ((cfg1.win 4).blk t).view.set := by
  have hi0 : (i 0).val < 10000 := idx2_lt0 i
  have hi1 : (i 1).val < 16 := idx2_lt1 i
  have hN : (i 0).val / 400 < cfg1.N := by show (i 0).val / 400 < grid1.N; rw [N_1]; omega
  refine ⟨⟨(i 0).val / 400, hN⟩, flush1_4 _, ?_⟩
  obtain ⟨-, -, -, -, -, -, -, -, e0, e1, -⟩ := idx_facts ⟨(i 0).val / 400, hN⟩
  rw [mem_blk]
  intro a
  match a with
  | ⟨0, _⟩ =>
    show win1_4.index ⟨(i 0).val / 400, hN⟩ (0 : Fin 2) * 400 ≤ (i 0).val ∧ (i 0).val < win1_4.index ⟨(i 0).val / 400, hN⟩ (0 : Fin 2) * 400 + 400
    rw [e0]; show (i 0).val / 400 * 400 ≤ (i 0).val ∧ (i 0).val < (i 0).val / 400 * 400 + 400; omega
  | ⟨1, _⟩ =>
    show win1_4.index ⟨(i 0).val / 400, hN⟩ (1 : Fin 2) * 16 ≤ (i 1).val ∧ (i 1).val < win1_4.index ⟨(i 0).val / 400, hN⟩ (1 : Fin 2) * 16 + 16
    rw [e1]; omega

/-- THE NEXT SUPPORT MATRIX after the launch: `relu (A · S + b) · W`, of the arrays as the launch finds them. -/
theorem value (c : Dev nD) : (dat1 V c).arrAt 4 cfg1.N = G V c :=
  (dat1 V c).arrAt_eq_of_cover 4 (G V c) (fun t _ => flushed_eq V c t) (cover)

/-! ## The copy of the adjacency -/

/-- WHAT POINT `t` WRITES BACK to the copy is block `t` of the adjacency itself. -/
theorem flushed_copy_eq (c : Dev nD) (t : Fin cfg1.N) :
    (dat1 V c).flushed 5 t = ((cfg1.win 5).blk t).view.read (Elt Ideal) (V c main_arg1 : Mat 10000 10000) := by
  show (cfg1.win 5).cut (grid1.coords t) ((dat1 V c).after 5 t) = _
  rw [after1_5]
  unfold out1_5
  rw [View.canon_unit_zero hz]
  simp only [View.ld_unit_zero (S := S400x10000) hz]
  rw [copy_eq]
  obtain ⟨e0, e1, -, -, -, -, -, -, -, -, f0, f1⟩ := idx_facts t
  funext y
  show V c main_arg1 (((cfg1.win 0).blk t).view.emb y) = V c main_arg1 (((cfg1.win 5).blk t).view.emb y)
  refine congrArg (V c main_arg1) (funext fun a => Fin.ext ?_)
  match a with
  | ⟨0, _⟩ => show win1_0.index t (0 : Fin 2) * 400 + 1 * (y 0).val = win1_5.index t (0 : Fin 2) * 400 + 1 * (y 0).val; omega
  | ⟨1, _⟩ => show win1_0.index t (1 : Fin 2) * 10000 + 1 * (y 1).val = win1_5.index t (1 : Fin 2) * 10000 + 1 * (y 1).val; omega

theorem mem_blk_copy (t : Fin cfg1.N) (i : S10000x10000.Idx) :
    i ∈ ((cfg1.win 5).blk t).view.set ↔ ∀ a : Fin 2, win1_5.index t a * S400x10000.size a ≤ (i a).val ∧ (i a).val < win1_5.index t a * S400x10000.size a + S400x10000.size a := by
  show i ∈ ((View.whole main_v7_1).slice (win1_5.rect t)).set ↔ _
  rw [View.set_slice_whole, Rect.mem_set_unit]
  exact Iff.rfl

theorem cover_copy (i : S10000x10000.Idx) : ∃ t : Fin cfg1.N, (cfg1.win 5).flush t = true ∧ i ∈ ((cfg1.win 5).blk t).view.set := by
  have hi0 : (i 0).val < 10000 := idx2_lt0 i
  have hi1 : (i 1).val < 10000 := idx2_lt1 i
  have hN : (i 0).val / 400 < cfg1.N := by show (i 0).val / 400 < grid1.N; rw [N_1]; omega
  refine ⟨⟨(i 0).val / 400, hN⟩, flush1_5 _, ?_⟩
  obtain ⟨-, -, -, -, -, -, -, -, -, -, e0, e1⟩ := idx_facts ⟨(i 0).val / 400, hN⟩
  rw [mem_blk_copy]
  intro a
  match a with
  | ⟨0, _⟩ =>
    show win1_5.index ⟨(i 0).val / 400, hN⟩ (0 : Fin 2) * 400 ≤ (i 0).val ∧ (i 0).val < win1_5.index ⟨(i 0).val / 400, hN⟩ (0 : Fin 2) * 400 + 400
    rw [e0]; show (i 0).val / 400 * 400 ≤ (i 0).val ∧ (i 0).val < (i 0).val / 400 * 400 + 400; omega
  | ⟨1, _⟩ =>
    show win1_5.index ⟨(i 0).val / 400, hN⟩ (1 : Fin 2) * 10000 ≤ (i 1).val ∧ (i 1).val < win1_5.index ⟨(i 0).val / 400, hN⟩ (1 : Fin 2) * 10000 + 10000
    rw [e1]; omega

/-- THE COPY after the launch is the adjacency. -/
theorem value_copy (c : Dev nD) : (dat1 V c).arrAt 5 cfg1.N = (V c main_arg1 : Mat 10000 10000) :=
  (dat1 V c).arrAt_eq_of_cover 5 (V c main_arg1 : Mat 10000 10000) (fun t _ => flushed_copy_eq V c t) (cover_copy)

end Cert.KernelIdeal.Region1

end
-- ==== Proof.Region2.lean ====
import proofs.«160933_g45140106281004_cont_8to1c4_826_4_alg».proof.Proof.Gen.KernelIdeal.Frame
import proofs.«160933_g45140106281004_cont_8to1c4_826_4_alg».proof.Proof.Payloads
import proofs.«160933_g45140106281004_cont_8to1c4_826_4_alg».proof.Proof.Slab

/-!
Hidden layer two's launch: the array its write-backs leave.

The grid has 25 points. Point `t` loads rows `400 t, …, 400 t + 399` of the adjacency, the whole support matrix,
the whole eight-row bias array and the whole next weight matrix, and writes back the same rows of the next support
matrix: `relu (A_t · S + b) · W` for its slab `A_t`. Every stage acts row by row, so that is the slab of rows of
`relu (A · S + b) · W` over the whole adjacency, and the 25 slabs tile the 10000 rows.
-/

set_option maxRecDepth 16384

noncomputable section

namespace Cert.KernelIdeal.Region2

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid point as a number below 25. -/
def pt (t : Fin cfg2.N) : Fin 25 := ⟨t.val, (show t.val < grid2.N from t.isLt).trans_eq N_2⟩

/-- The index maps over the grid: the adjacency and the outputs move down by one block of rows per point, the support
    matrix, the bias and the weights stay at block zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The function the next support matrix ends holding, of the four arrays the launch reads. -/
def G (c : Dev nD) : Mat 10000 16 :=
  mm (relu (agg (V c main_v7_1 : Mat 10000 10000) (V c main_v7_0 : Mat 10000 16) (rowOf (r := 7) (V c main_v4 : Mat 8 16))))
    (V c main_arg6 : Mat 16 16)

/-- The adjacency block at point `t` is the slab of rows `400 t, …`. -/
theorem read_adj (c : Dev nD) (t : Fin cfg2.N) : (iblk2 V c 0 t : Mat 400 10000) = slab (V c main_v7_1 : Mat 10000 10000) (pt t) := by
  obtain ⟨e0, e1, -⟩ := idx_facts t
  funext y
  show V c main_v7_1 (((cfg2.win 0).blk t).view.emb y) = V c main_v7_1 (ix2 (slabRow (pt t) (y 0)) (y 1))
  refine congrArg (V c main_v7_1) (funext fun a => Fin.ext ?_)
  match a with
  | ⟨0, _⟩ => show win2_0.index t (0 : Fin 2) * 400 + 1 * (y 0).val = 400 * t.val + (y 0).val; omega
  | ⟨1, _⟩ => show win2_0.index t (1 : Fin 2) * 10000 + 1 * (y 1).val = (y 1).val; omega

/-- The support block is the whole support matrix. -/
theorem read_sup (c : Dev nD) (t : Fin cfg2.N) : (iblk2 V c 1 t : Mat 10000 16) = (V c main_v7_0 : Mat 10000 16) := by
  obtain ⟨-, -, e0, e1, -⟩ := idx_facts t
  funext y
  show V c main_v7_0 (((cfg2.win 1).blk t).view.emb y) = V c main_v7_0 y
  refine congrArg (V c main_v7_0) (funext fun a => Fin.ext ?_)
  match a with
  | ⟨0, _⟩ => show win2_1.index t (0 : Fin 2) * 10000 + 1 * (y 0).val = (y 0).val; omega
  | ⟨1, _⟩ => show win2_1.index t (1 : Fin 2) * 16 + 1 * (y 1).val = (y 1).val; omega

/-- The bias block is the whole eight-row bias array. -/
theorem read_bias (c : Dev nD) (t : Fin cfg2.N) : (iblk2 V c 2 t : Mat 8 16) = (V c main_v4 : Mat 8 16) := by
  obtain ⟨-, -, -, -, e0, e1, -⟩ := idx_facts t
  funext y
  show V c main_v4 (((cfg2.win 2).blk t).view.emb y) = V c main_v4 y
  refine congrArg (V c main_v4) (funext fun a => Fin.ext ?_)
  match a with
  | ⟨0, _⟩ => show win2_2.index t (0 : Fin 2) * 8 + 1 * (y 0).val = (y 0).val; omega
  | ⟨1, _⟩ => show win2_2.index t (1 : Fin 2) * 16 + 1 * (y 1).val = (y 1).val; omega

/-- The weight block is the whole weight matrix. -/
theorem read_w (c : Dev nD) (t : Fin cfg2.N) : (iblk2 V c 3 t : Mat 16 16) = (V c main_arg6 : Mat 16 16) := by
  obtain ⟨-, -, -, -, -, -, e0, e1, -⟩ := idx_facts t
  funext y
  show V c main_arg6 (((cfg2.win 3).blk t).view.emb y) = V c main_arg6 y
  refine congrArg (V c main_arg6) (funext fun a => Fin.ext ?_)
  match a with
  | ⟨0, _⟩ => show win2_3.index t (0 : Fin 2) * 16 + 1 * (y 0).val = (y 0).val; omega
  | ⟨1, _⟩ => show win2_3.index t (1 : Fin 2) * 16 + 1 * (y 1).val = (y 1).val; omega

/-- The bias the body loads, row 0 of the eight-row array, as a vector. -/
theorem rowOf_ld (x : Vec Ideal S8x16 .f32) : rowOf (r := 0) (View.ld x r2_2) = rowOf (r := 7) (x : Mat 8 16) := by
  funext i
  show x (r2_2.emb (ix2 (0 : Fin 1) (i 0))) = x (ix2 (0 : Fin 8) (i 0))
  refine congrArg x (funext fun a => Fin.ext ?_)
  rw [Rect.emb_apply]
  match a with
  | ⟨0, _⟩ => rfl
  | ⟨1, _⟩ => show 0 + 1 * (i 0).val = (i 0).val; omega

/-- WHAT POINT `t` WRITES BACK to the next support matrix is block `t` of `G`. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x16) hz, View.ld_unit_zero (S := S16x16) hz]
  rw [hidden2_eq, rowOf_ld, read_adj V c t, read_sup V c t, read_bias V c t, read_w V c t, slab_agg, slab_relu, slab_mm]
  obtain ⟨-, -, -, -, -, -, -, -, e0, e1⟩ := idx_facts t
  funext y
  show G V c (ix2 (slabRow (pt t) (y 0)) (y 1)) = G V c (((cfg2.win 4).blk t).view.emb y)
  refine congrArg (G V c) (funext fun a => Fin.ext ?_)
  match a with
  | ⟨0, _⟩ => show 400 * t.val + (y 0).val = win2_4.index t (0 : Fin 2) * 400 + 1 * (y 0).val; omega
  | ⟨1, _⟩ => show (y 1).val = win2_4.index t (1 : Fin 2) * 16 + 1 * (y 1).val; omega

/-- An index of the output array is in point `t`'s block iff each coordinate is in the block's range on its axis. -/
theorem mem_blk (t : Fin cfg2.N) (i : S10000x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_v8).slice (win2_4.rect t)).set ↔ _
  rw [View.set_slice_whole, Rect.mem_set_unit]
  exact Iff.rfl

/-- Every row belongs to the block of the point `row / 400`. -/
theorem cover (i : S10000x16.Idx) : ∃ t : Fin cfg2.N, (cfg2.win 4).flush t = true ∧ i ∈ ((cfg2.win 4).blk t).view.set := by
  have hi0 : (i 0).val < 10000 := idx2_lt0 i
  have hi1 : (i 1).val < 16 := idx2_lt1 i
  have hN : (i 0).val / 400 < cfg2.N := by show (i 0).val / 400 < grid2.N; rw [N_2]; omega
  refine ⟨⟨(i 0).val / 400, hN⟩, flush2_4 _, ?_⟩
  obtain ⟨-, -, -, -, -, -, -, -, e0, e1⟩ := idx_facts ⟨(i 0).val / 400, hN⟩
  rw [mem_blk]
  intro a
  match a with
  | ⟨0, _⟩ =>
    show win2_4.index ⟨(i 0).val / 400, hN⟩ (0 : Fin 2) * 400 ≤ (i 0).val ∧ (i 0).val < win2_4.index ⟨(i 0).val / 400, hN⟩ (0 : Fin 2) * 400 + 400
    rw [e0]; show (i 0).val / 400 * 400 ≤ (i 0).val ∧ (i 0).val < (i 0).val / 400 * 400 + 400; omega
  | ⟨1, _⟩ =>
    show win2_4.index ⟨(i 0).val / 400, hN⟩ (1 : Fin 2) * 16 ≤ (i 1).val ∧ (i 1).val < win2_4.index ⟨(i 0).val / 400, hN⟩ (1 : Fin 2) * 16 + 16
    rw [e1]; omega

/-- THE NEXT SUPPORT MATRIX after the launch: `relu (A · S + b) · W`, of the arrays as the launch finds them. -/
theorem value (c : Dev nD) : (dat2 V c).arrAt 4 cfg2.N = G V c :=
  (dat2 V c).arrAt_eq_of_cover 4 (G V c) (fun t _ => flushed_eq V c t) (cover)

end Cert.KernelIdeal.Region2

end
-- ==== Proof.Region3.lean ====
import proofs.«160933_g45140106281004_cont_8to1c4_826_4_alg».proof.Proof.Gen.KernelIdeal.Frame
import proofs.«160933_g45140106281004_cont_8to1c4_826_4_alg».proof.Proof.Payloads
import proofs.«160933_g45140106281004_cont_8to1c4_826_4_alg».proof.Proof.Slab

/-!
The last launch: the array its write-backs leave.

The grid has 25 points. Point `t` loads rows `400 t, …, 400 t + 399` of the adjacency copy, the whole support
matrix and the whole eight-row bias array, and writes back the same rows of the result. What it writes is the
log-softmax of `A_t · S + b` for its slab `A_t`; since every stage acts row by row, that is the slab of rows of
`logSoftmaxSum (A · S + b)` taken over the whole adjacency. The 25 slabs tile the 10000 rows, so the array ends
holding that function everywhere.
-/

set_option maxRecDepth 16384

noncomputable section

namespace Cert.KernelIdeal.Region3

open Cert.KernelIdeal Cert.KernelIdeal.Gen Cert.KernelIdeal.Payloads Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid point as a number below 25. -/
def pt (t : Fin cfg3.N) : Fin 25 := ⟨t.val, (show t.val < grid3.N from t.isLt).trans_eq N_3⟩

/-- The index maps over the grid: the adjacency and the result move down by one block of rows per point, the support
    matrix and the bias stay at block zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The function the result array ends holding, of the three arrays the launch reads. -/
def G (c : Dev nD) : Mat 10000 16 :=
  logSoftmaxSum (agg (V c main_v7_1 : Mat 10000 10000) (V c main_v8 : Mat 10000 16) (rowOf (r := 7) (V c main_v6 : Mat 8 16)))

/-- The adjacency block at point `t` is the slab of rows `400 t, …`. -/
theorem read_adj (c : Dev nD) (t : Fin cfg3.N) : (iblk3 V c 0 t : Mat 400 10000) = slab (V c main_v7_1 : Mat 10000 10000) (pt t) := by
  obtain ⟨e0, e1, -⟩ := idx_facts t
  funext y
  show V c main_v7_1 (((cfg3.win 0).blk t).view.emb y) = V c main_v7_1 (ix2 (slabRow (pt t) (y 0)) (y 1))
  refine congrArg (V c main_v7_1) (funext fun a => Fin.ext ?_)
  match a with
  | ⟨0, _⟩ => show win3_0.index t (0 : Fin 2) * 400 + 1 * (y 0).val = 400 * t.val + (y 0).val; omega
  | ⟨1, _⟩ => show win3_0.index t (1 : Fin 2) * 10000 + 1 * (y 1).val = (y 1).val; omega

/-- The support block is the whole support matrix. -/
theorem read_sup (c : Dev nD) (t : Fin cfg3.N) : (iblk3 V c 1 t : Mat 10000 16) = (V c main_v8 : Mat 10000 16) := by
  obtain ⟨-, -, e0, e1, -⟩ := idx_facts t
  funext y
  show V c main_v8 (((cfg3.win 1).blk t).view.emb y) = V c main_v8 y
  refine congrArg (V c main_v8) (funext fun a => Fin.ext ?_)
  match a with
  | ⟨0, _⟩ => show win3_1.index t (0 : Fin 2) * 10000 + 1 * (y 0).val = (y 0).val; omega
  | ⟨1, _⟩ => show win3_1.index t (1 : Fin 2) * 16 + 1 * (y 1).val = (y 1).val; omega

/-- The bias block is the whole eight-row bias array. -/
theorem read_bias (c : Dev nD) (t : Fin cfg3.N) : (iblk3 V c 2 t : Mat 8 16) = (V c main_v6 : Mat 8 16) := by
  obtain ⟨-, -, -, -, e0, e1, -⟩ := idx_facts t
  funext y
  show V c main_v6 (((cfg3.win 2).blk t).view.emb y) = V c main_v6 y
  refine congrArg (V c main_v6) (funext fun a => Fin.ext ?_)
  match a with
  | ⟨0, _⟩ => show win3_2.index t (0 : Fin 2) * 8 + 1 * (y 0).val = (y 0).val; omega
  | ⟨1, _⟩ => show win3_2.index t (1 : Fin 2) * 16 + 1 * (y 1).val = (y 1).val; omega

/-- The bias the body loads, row 0 of the eight-row array, as a vector. -/
theorem rowOf_ld (x : Vec Ideal S8x16 .f32) : rowOf (r := 0) (View.ld x r3_2) = rowOf (r := 7) (x : Mat 8 16) := by
  funext i
  show x (r3_2.emb (ix2 (0 : Fin 1) (i 0))) = x (ix2 (0 : Fin 8) (i 0))
  refine congrArg x (funext fun a => Fin.ext ?_)
  rw [Rect.emb_apply]
  match a with
  | ⟨0, _⟩ => rfl
  | ⟨1, _⟩ => show 0 + 1 * (i 0).val = (i 0).val; omega

/-- WHAT POINT `t` WRITES BACK is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x16) hz]
  rw [final_eq, rowOf_ld, read_adj V c t, read_sup V c t, read_bias V c t, slab_agg, slab_logSoftmaxSum]
  obtain ⟨-, -, -, -, -, -, e0, e1⟩ := idx_facts t
  funext y
  show G V c (ix2 (slabRow (pt t) (y 0)) (y 1)) = G V c (((cfg3.win 3).blk t).view.emb y)
  refine congrArg (G V c) (funext fun a => Fin.ext ?_)
  match a with
  | ⟨0, _⟩ => show 400 * t.val + (y 0).val = win3_3.index t (0 : Fin 2) * 400 + 1 * (y 0).val; omega
  | ⟨1, _⟩ => show (y 1).val = win3_3.index t (1 : Fin 2) * 16 + 1 * (y 1).val; omega

/-- An index of the result array is in point `t`'s block iff each coordinate is in the block's range on its axis. -/
theorem mem_blk (t : Fin cfg3.N) (i : S10000x16.Idx) :
    i ∈ ((cfg3.win 3).blk t).view.set ↔ ∀ a : Fin 2, win3_3.index t a * S400x16.size a ≤ (i a).val ∧ (i a).val < win3_3.index t a * S400x16.size a + S400x16.size a := by
  show i ∈ ((View.whole main_v9).slice (win3_3.rect t)).set ↔ _
  rw [View.set_slice_whole, Rect.mem_set_unit]
  exact Iff.rfl

/-- Every row belongs to the block of the point `row / 400`. -/
theorem cover (i : S10000x16.Idx) : ∃ t : Fin cfg3.N, (cfg3.win 3).flush t = true ∧ i ∈ ((cfg3.win 3).blk t).view.set := by
  have hi0 : (i 0).val < 10000 := idx2_lt0 i
  have hi1 : (i 1).val < 16 := idx2_lt1 i
  have hN : (i 0).val / 400 < cfg3.N := by show (i 0).val / 400 < grid3.N; rw [N_3]; omega
  refine ⟨⟨(i 0).val / 400, hN⟩, flush3_3 _, ?_⟩
  obtain ⟨-, -, -, -, -, -, e0, e1⟩ := idx_facts ⟨(i 0).val / 400, hN⟩
  rw [mem_blk]
  intro a
  match a with
  | ⟨0, _⟩ =>
    show win3_3.index ⟨(i 0).val / 400, hN⟩ (0 : Fin 2) * 400 ≤ (i 0).val ∧ (i 0).val < win3_3.index ⟨(i 0).val / 400, hN⟩ (0 : Fin 2) * 400 + 400
    rw [e0]; show (i 0).val / 400 * 400 ≤ (i 0).val ∧ (i 0).val < (i 0).val / 400 * 400 + 400; omega
  | ⟨1, _⟩ =>
    show win3_3.index ⟨(i 0).val / 400, hN⟩ (1 : Fin 2) * 16 ≤ (i 1).val ∧ (i 1).val < win3_3.index ⟨(i 0).val / 400, hN⟩ (1 : Fin 2) * 16 + 16
    rw [e1]; omega

/-- THE RESULT ARRAY after the launch: the log-softmax of `A · S + b`, of the arrays as the launch finds them. -/
theorem value (c : Dev nD) : (dat3 V c).arrAt 3 cfg3.N = G V c :=
  (dat3 V c).arrAt_eq_of_cover 3 (G V c) (fun t _ => flushed_eq V c t) (cover)

end Cert.KernelIdeal.Region3

end
-- ==== Proof.HostStretch.lean ====
import proofs.«160933_g45140106281004_cont_8to1c4_826_4_alg».proof.Proof.Gen.KernelIdeal.Launch
import proofs.«160933_g45140106281004_cont_8to1c4_826_4_alg».proof.Proof.Payloads
import Idealize.ShloMosaic.Lib.StableHlo.Run
import Idealize.ShloMosaic.Lib.Pipeline.Value
import Idealize.ShloMosaic.Lib.ValueIdx

/-!
The host operations between the first and the second launch.

Each of the three bias vectors `b : [16]` is viewed as one row `[1, 16]` and that row repeated to eight rows
`[8, 16]`; the kernel bodies read row 0 of the eight-row array as the bias. Row 0 of that array is the vector itself:
entry `(0, q)` of the repeated array is entry `(0, q)` of the one-row view, which is `b q`. Every buffer other than
the six these operations write keeps its contents.
-/

noncomputable section

namespace Cert.KernelIdeal.HostStretch

open Cert.KernelIdeal Cert.KernelIdeal.Gen Cert.Gcn
open Idealize.ShloMosaic Idealize.ShloMosaic.TcCoe Idealize.ShloMosaic.ValueIdx Idealize.SL.Sem

/-- A vector of 16 entries viewed as one row and repeated to eight rows has the vector as its row 0. -/
theorem rowOf_rows_of_row (hd : S16.BroadcastsInDim S1x16 (![1] : Fin 1 → Fin S1x16.rank))
    (hbc : S1x16.BroadcastsInDim S8x16 (![0, 1] : Fin 2 → Fin S8x16.rank)) (v : S16.Idx → EReal) :
    Payloads.rowOf (r := 7) (broadcastInDim S8x16 ![0, 1] hbc (broadcastInDim S1x16 ![1] hd v)) = v := by
  funext i
  unfold Payloads.rowOf
  have e1 := broadcastInDim_apply ![0, 1] hbc (broadcastInDim S1x16 ![1] hd v) (ix2 (0 : Fin 8) (i 0))
    (ix2 (0 : Fin 1) (i 0)) (by
      intro a
      match a with
      | ⟨0, _⟩ => rfl
      | ⟨1, _⟩ =>
        show (i 0).val = if (16 : ℕ) = 1 then 0 else (i 0).val
        rw [if_neg (by decide)])
  have e2 := broadcastInDim_apply ![1] hd v (ix2 (0 : Fin 1) (i 0)) i (by
      intro a
      match a with
      | ⟨0, _⟩ =>
        show (i 0).val = if (16 : ℕ) = 1 then 0 else (i 0).val
        rw [if_neg (by decide)])
  exact e1.trans e2

theorem bias_v2 (W : Valuation τ sig (Elt Ideal)) :
    Payloads.rowOf (r := 7) (StableHlo.after (hostOps1 (F := Ideal)) W (Proc.devRef .tc main_v2) : Mat 8 16)
      = (W (Proc.devRef .tc main_arg3) : Row 16) := by
  have e : (StableHlo.after (hostOps1 (F := Ideal)) W (Proc.devRef .tc main_v2) : S8x16.Idx → EReal)
      = broadcastInDim S8x16 ![0, 1] bcast_S1x16_S8x16_0_1
          (broadcastInDim S1x16 ![1] bcast_S16_S1x16_1 (W (Proc.devRef .tc main_arg3))) := by
    simp only [hostOps1]; after_results
  exact (congrArg (Payloads.rowOf (r := 7)) e).trans (rowOf_rows_of_row _ _ _)

theorem bias_v4 (W : Valuation τ sig (Elt Ideal)) :
    Payloads.rowOf (r := 7) (StableHlo.after (hostOps1 (F := Ideal)) W (Proc.devRef .tc main_v4) : Mat 8 16)
      = (W (Proc.devRef .tc main_arg5) : Row 16) := by
  have e : (StableHlo.after (hostOps1 (F := Ideal)) W (Proc.devRef .tc main_v4) : S8x16.Idx → EReal)
      = broadcastInDim S8x16 ![0, 1] bcast_S1x16_S8x16_0_1
          (broadcastInDim S1x16 ![1] bcast_S16_S1x16_1 (W (Proc.devRef .tc main_arg5))) := by
    simp only [hostOps1]; after_results
  exact (congrArg (Payloads.rowOf (r := 7)) e).trans (rowOf_rows_of_row _ _ _)

theorem bias_v6 (W : Valuation τ sig (Elt Ideal)) :
    Payloads.rowOf (r := 7) (StableHlo.after (hostOps1 (F := Ideal)) W (Proc.devRef .tc main_v6) : Mat 8 16)
      = (W (Proc.devRef .tc main_arg7) : Row 16) := by
  have e : (StableHlo.after (hostOps1 (F := Ideal)) W (Proc.devRef .tc main_v6) : S8x16.Idx → EReal)
      = broadcastInDim S8x16 ![0, 1] bcast_S1x16_S8x16_0_1
          (broadcastInDim S1x16 ![1] bcast_S16_S1x16_1 (W (Proc.devRef .tc main_arg7))) := by
    simp only [hostOps1]; after_results
  exact (congrArg (Payloads.rowOf (r := 7)) e).trans (rowOf_rows_of_row _ _ _)

/-- A buffer other than the six the stretch writes keeps its contents. -/
theorem keep (W : Valuation τ sig (Elt Ideal)) (b : Ref sig .tc) (h1 : b ≠ main_v1) (h2 : b ≠ main_v2)
    (h3 : b ≠ main_v3) (h4 : b ≠ main_v4) (h5 : b ≠ main_v5) (h6 : b ≠ main_v6) :
    StableHlo.after (hostOps1 (F := Ideal)) W (Proc.devRef .tc b) = W (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

end Cert.KernelIdeal.HostStretch

end
-- ==== Proof.KernelValue.lean ====
import proofs.«160933_g45140106281004_cont_8to1c4_826_4_alg».proof.Proof.Gen.KernelIdeal.Frame
import proofs.«160933_g45140106281004_cont_8to1c4_826_4_alg».proof.Proof.Region0
import proofs.«160933_g45140106281004_cont_8to1c4_826_4_alg».proof.Proof.Region1
import proofs.«160933_g45140106281004_cont_8to1c4_826_4_alg».proof.Proof.Region2
import proofs.«160933_g45140106281004_cont_8to1c4_826_4_alg».proof.Proof.Region3
import proofs.«160933_g45140106281004_cont_8to1c4_826_4_alg».proof.Proof.HostStretch

/-!
The kernel's value: what the result buffer holds at the last boundary, as one function of the eight arguments.

Each boundary's contents are read only at the buffers a later launch loads, and each such buffer is walked back:

* after the projection launch the first support matrix is `S₁ = x · W₁`; nothing else changed;
* the host stretch writes the three eight-row bias arrays, whose row 0 is `b₁`, `b₂`, `b₃`; nothing else changed;
* hidden layer one leaves `S₂ = relu (A · S₁ + b₁) · W₂` and a copy of `A`;
* hidden layer two, reading that copy, leaves `S₃ = relu (A · S₂ + b₂) · W₃`;
* the last launch leaves `logSoftmaxSum (A · S₃ + b₃)`,

which is `logSoftmaxSum` of the network's logits.
-/

set_option maxRecDepth 16384

noncomputable section

namespace Cert.KernelIdeal.KernelValue

open Cert.KernelIdeal Cert.KernelIdeal.Gen Cert.KernelIdeal.Payloads Cert.Gcn
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The eight arguments as launched. -/
abbrev X : Mat 10000 128 := m ((c : Thread nD τ).loc main_arg0)
abbrev A : Mat 10000 10000 := m ((c : Thread nD τ).loc main_arg1)
abbrev W₁ : Mat 128 16 := m ((c : Thread nD τ).loc main_arg2)
abbrev B₁ : Row 16 := m ((c : Thread nD τ).loc main_arg3)
abbrev W₂ : Mat 16 16 := m ((c : Thread nD τ).loc main_arg4)
abbrev B₂ : Row 16 := m ((c : Thread nD τ).loc main_arg5)
abbrev W₃ : Mat 16 16 := m ((c : Thread nD τ).loc main_arg6)
abbrev B₃ : Row 16 := m ((c : Thread nD τ).loc main_arg7)

/-- The three support matrices. -/
def S₁ : Mat 10000 16 := mm (X m c) (W₁ m c)
def S₂ : Mat 10000 16 := mm (relu (agg (A m c) (S₁ m c) (B₁ m c))) (W₂ m c)
def S₃ : Mat 10000 16 := mm (relu (agg (A m c) (S₂ m c) (B₂ m c))) (W₃ m c)

/-! ## After the projection launch -/

theorem v1_sup : (V1 m ρ c main_v0 : Mat 10000 16) = S₁ m c :=
  (hF0 m ρ c 2).symm.trans (Region0.value (V0 m ρ) c)

theorem v1_arg (b : Ref sig .tc) (hb : ∀ w, Pipeline.arrRef spec0 w ≠ b) : V1 m ρ c b = m ((c : Thread nD τ).loc b) :=
  W1_of_ne m ρ c b hb

/-! ## After the host stretch -/

theorem v2_adj : (V2 m ρ c main_arg1 : Mat 10000 10000) = A m c :=
  (HostStretch.keep (W1 m ρ c) main_arg1 (by decide) (by decide) (by decide) (by decide) (by decide) (by decide)).trans
    (v1_arg m ρ c main_arg1 (by decide))

theorem v2_sup : (V2 m ρ c main_v0 : Mat 10000 16) = S₁ m c :=
  (HostStretch.keep (W1 m ρ c) main_v0 (by decide) (by decide) (by decide) (by decide) (by decide) (by decide)).trans
    (v1_sup m ρ c)

theorem v2_w2 : (V2 m ρ c main_arg4 : Mat 16 16) = W₂ m c :=
  (HostStretch.keep (W1 m ρ c) main_arg4 (by decide) (by decide) (by decide) (by decide) (by decide) (by decide)).trans
    (v1_arg m ρ c main_arg4 (by decide))

theorem v2_w3 : (V2 m ρ c main_arg6 : Mat 16 16) = W₃ m c :=
  (HostStretch.keep (W1 m ρ c) main_arg6 (by decide) (by decide) (by decide) (by decide) (by decide) (by decide)).trans
    (v1_arg m ρ c main_arg6 (by decide))

theorem v2_b1 : rowOf (r := 7) (V2 m ρ c main_v2 : Mat 8 16) = B₁ m c :=
  (HostStretch.bias_v2 (W1 m ρ c)).trans (v1_arg m ρ c main_arg3 (by decide))

theorem v2_b2 : rowOf (r := 7) (V2 m ρ c main_v4 : Mat 8 16) = B₂ m c :=
  (HostStretch.bias_v4 (W1 m ρ c)).trans (v1_arg m ρ c main_arg5 (by decide))

theorem v2_b3 : rowOf (r := 7) (V2 m ρ c main_v6 : Mat 8 16) = B₃ m c :=
  (HostStretch.bias_v6 (W1 m ρ c)).trans (v1_arg m ρ c main_arg7 (by decide))

/-! ## After hidden layer one -/

theorem v3_sup : (V3 m ρ c main_v7_0 : Mat 10000 16) = S₂ m c := by
  refine (hF1 m ρ c 4).symm.trans ((Region1.value (V2 m ρ) c).trans ?_)
  unfold Region1.G S₂
  rw [v2_adj, v2_sup, v2_b1, v2_w2]

theorem v3_adj : (V3 m ρ c main_v7_1 : Mat 10000 10000) = A m c :=
  (hF1 m ρ c 5).symm.trans ((Region1.value_copy (V2 m ρ) c).trans (v2_adj m ρ c))

theorem v3_rest (b : Ref sig .tc) (hb : ∀ w, Pipeline.arrRef spec1 w ≠ b) : V3 m ρ c b = V2 m ρ c b :=
  W3_of_ne m ρ c b hb

/-! ## After hidden layer two -/

theorem v4_sup : (V4 m ρ c main_v8 : Mat 10000 16) = S₃ m c := by
  refine (hF2 m ρ c 4).symm.trans ((Region2.value (V3 m ρ) c).trans ?_)
  unfold Region2.G S₃
  rw [v3_adj, v3_sup, v3_rest m ρ c main_v4 (by decide), v2_b2, v3_rest m ρ c main_arg6 (by decide), v2_w3]

theorem v4_adj : (V4 m ρ c main_v7_1 : Mat 10000 10000) = A m c :=
  (hF2 m ρ c 0).symm.trans (((dat2 (V3 m ρ) c).arrAt_in 0 rfl _).trans ((A_eq2 (V3 m ρ) c 0).trans (v3_adj m ρ c)))

theorem v4_b3 : rowOf (r := 7) (V4 m ρ c main_v6 : Mat 8 16) = B₃ m c := by
  rw [show V4 m ρ c main_v6 = V3 m ρ c main_v6 from W4_of_ne m ρ c main_v6 (by decide), v3_rest m ρ c main_v6 (by decide)]
  exact v2_b3 m ρ c

/-! ## After the last launch -/

/-- The result buffer at the last boundary holds the kernel's arrangement of the log-softmax of the logits. -/
theorem result : (W5 m ρ c (Proc.devRef .tc main_v9) : Mat 10000 16)
    = logSoftmaxSum (logits (X m c) (A m c) (W₁ m c) (B₁ m c) (W₂ m c) (B₂ m c) (W₃ m c) (B₃ m c)) := by
  refine (hF3 m ρ c 3).symm.trans ((Region3.value (V4 m ρ) c).trans ?_)
  unfold Region3.G
  rw [v4_adj, v4_sup, v4_b3]
  rfl

end Cert.KernelIdeal.KernelValue

end
-- ==== Proof.RefRun.lean ====
import proofs.«160933_g45140106281004_cont_8to1c4_826_4_alg».proof.Proof.Gen.ReferenceIdeal
import Idealize.ShloMosaic.Lib.StableHlo.Run

/-!
The reference program's run, read back as one composed term of its eight arguments.

The reference is a straight line of 36 tensor operations. Run from any memory, it ends with every argument
unchanged and the result buffer holding the operations' composition applied to the arguments. That composition is
named here stage by stage, in the order the mathematics reads:

* `dotXW`, `dotAdj`, `dotHW` — the three matrix products `x · W₁` (`[10000,128]·[128,16]`), `adj · s`
  (`[10000,10000]·[10000,16]`) and `h · W` (`[10000,16]·[16,16]`);
* `biasRows` — a bias vector of 16 entries repeated on each of the 10000 rows;
* `layer` — one aggregation `adj · s + bias`;
* `rectify` — the entrywise maximum with the constant zero matrix;
* `logitsOf` — the three layers chained: the values before the log-softmax;
* `rowMaxB`, `shifted`, `logSumB`, `logSoftmax` — the row-wise log-softmax `(y − μ) − log ∑ exp (y − μ)`, with `μ` the
  row's maximum (folded from `−∞`, then once more compared with `−∞`), both `μ` and the logarithm repeated along the row.

`out` is their composition at the memory's argument buffers, and `run` states the run with it.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- `x · W₁`: the `[10000,128] · [128,16]` product. -/
def dotXW (x : FVec F S10000x128 .f32) (W : FVec F S128x16 .f32) : FVec F S10000x16 .f32 :=
  Host.dotGeneral dot_S10000x128_S128x16_S10000x16_1_0_0_1_n_n none x W

/-- `adj · s`: the `[10000,10000] · [10000,16]` product. -/
def dotAdj (adj : FVec F S10000x10000 .f32) (s : FVec F S10000x16 .f32) : FVec F S10000x16 .f32 :=
  Host.dotGeneral dot_S10000x10000_S10000x16_S10000x16_1_0_0_1_n_n none adj s

/-- `h · W`: the `[10000,16] · [16,16]` product. -/
def dotHW (h : FVec F S10000x16 .f32) (W : FVec F S16x16 .f32) : FVec F S10000x16 .f32 :=
  Host.dotGeneral dot_S10000x16_S16x16_S10000x16_1_0_0_1_n_n none h W

/-- A bias vector as a `[10000,16]` matrix: first as one row `[1,16]`, then that row on every row. -/
def biasRows (b : FVec F S16 .f32) : FVec F S10000x16 .f32 :=
  broadcastInDim S10000x16 ![0, 1] bcast_S1x16_S10000x16_0_1 (broadcastInDim S1x16 ![1] bcast_S16_S1x16_1 b)

/-- One aggregation: `adj · s + bias`. -/
def layer (adj : FVec F S10000x10000 .f32) (s : FVec F S10000x16 .f32) (b : FVec F S16 .f32) : FVec F S10000x16 .f32 :=
  addf (dotAdj adj s) (biasRows b)

/-- The rectifier: the entrywise maximum with the zero matrix. -/
def rectify (v : FVec F S10000x16 .f32) : FVec F S10000x16 .f32 :=
  maximumf v (broadcastInDim S10000x16 ![] bcast_S_S10000x16 (constant S_ .f32 0x00000000#32))

/-- The three layers chained: the values the log-softmax is taken of. -/
def logitsOf (x : FVec F S10000x128 .f32) (adj : FVec F S10000x10000 .f32) (W1 : FVec F S128x16 .f32) (b1 : FVec F S16 .f32)
    (W2 : FVec F S16x16 .f32) (b2 : FVec F S16 .f32) (W3 : FVec F S16x16 .f32) (b3 : FVec F S16 .f32) : FVec F S10000x16 .f32 :=
  layer adj (dotHW (rectify (layer adj (dotHW (rectify (layer adj (dotXW x W1) b1)) W2) b2)) W3) b3

/-- Each row's maximum, repeated along the row: the maximum folded from `−∞` over the row, compared once more with
    `−∞`, made a column `[10000,1]` and that column repeated on the 16 columns. -/
def rowMaxB (y : FVec F S10000x16 .f32) : FVec F S10000x16 .f32 :=
  broadcastInDim S10000x16 ![0, 1] bcast_S10000x1_S10000x16_0_1 (broadcastInDim S10000x1 ![0] bcast_S10000_S10000x1_0
    (maximumf (broadcastInDim S10000 ![] bcast_S_S10000 (constant S_ .f32 0xFF800000#32))
      (Host.reduce FloatOps.maximumf y (constant S_ .f32 0xFF800000#32) reducesTo_S10000x16_S10000_d1 h_S_)))

/-- `y − μ`, `μ` the row's maximum. -/
def shifted (y : FVec F S10000x16 .f32) : FVec F S10000x16 .f32 := subf y (rowMaxB y)

/-- `log ∑ exp (y − μ)` of each row (the sum from `0`), repeated along the row: the sums made a column `[10000,1]`,
    the logarithm taken, and that column repeated on the 16 columns. -/
def logSumB (y : FVec F S10000x16 .f32) : FVec F S10000x16 .f32 :=
  broadcastInDim S10000x16 ![0, 1] bcast_S10000x1_S10000x16_0_1 (Host.log (broadcastInDim S10000x1 ![0] bcast_S10000_S10000x1_0
    (Host.reduceAdd (Host.exp (shifted y)) (constant S_ .f32 0x00000000#32) reducesTo_S10000x16_S10000_d1 h_S_)))

/-- The row-wise log-softmax, arranged `(y − μ) − log ∑ exp (y − μ)`. -/
def logSoftmax (y : FVec F S10000x16 .f32) : FVec F S10000x16 .f32 := subf (shifted y) (logSumB y)

/-! ## The operations and their run -/

/-- The program's 36 operations, in order (the operations of a called function standing in the call's place). -/
abbrev ops : List (HloOp τ sig (Elt F)) :=
  [ binary main_arg0 main_arg2 main_v0 ((fun l r => Host.dotGeneral dot_S10000x128_S128x16_S10000x16_1_0_0_1_n_n none l r) : (⟨S10000x128, .f32⟩ : BufTy).Contents (Elt F) → (⟨S128x16, .f32⟩ : BufTy).Contents (Elt F) → (⟨S10000x16, .f32⟩ : BufTy).Contents (Elt F)),
    binary main_arg1 main_v0 main_v1 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg3 main_v2 (broadcastInDim S1x16 ![1] bcast_S16_S1x16_1 : (⟨S16, .f32⟩ : BufTy).Contents (Elt F) → (⟨S1x16, .f32⟩ : BufTy).Contents (Elt F)),
    unary main_v2 main_v3 (broadcastInDim S10000x16 ![0, 1] bcast_S1x16_S10000x16_0_1 : (⟨S1x16, .f32⟩ : BufTy).Contents (Elt F) → (⟨S10000x16, .f32⟩ : BufTy).Contents (Elt F)),
    binary main_v1 main_v3 main_v4 (addf : (⟨S10000x16, .f32⟩ : BufTy).Contents (Elt F) → (⟨S10000x16, .f32⟩ : BufTy).Contents (Elt F) → (⟨S10000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x16, .f32⟩) main_call0_v0) (broadcastInDim S10000x16 ![] bcast_S_S10000x16),
    TRef.binary (TRef.of (T := ⟨S10000x16, .f32⟩) main_v4) (TRef.of (T := ⟨S10000x16, .f32⟩) main_call0_v0) (TRef.of (T := ⟨S10000x16, .f32⟩) main_v5) maximumf,
    binary main_v5 main_arg4 main_v6 ((fun l r => Host.dotGeneral dot_S10000x16_S16x16_S10000x16_1_0_0_1_n_n none l r) : (⟨S10000x16, .f32⟩ : BufTy).Contents (Elt F) → (⟨S16x16, .f32⟩ : BufTy).Contents (Elt F) → (⟨S10000x16, .f32⟩ : BufTy).Contents (Elt F)),
    binary main_arg1 main_v6 main_v7 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg5 main_v8 (broadcastInDim S1x16 ![1] bcast_S16_S1x16_1 : (⟨S16, .f32⟩ : BufTy).Contents (Elt F) → (⟨S1x16, .f32⟩ : BufTy).Contents (Elt F)),
    unary main_v8 main_v9 (broadcastInDim S10000x16 ![0, 1] bcast_S1x16_S10000x16_0_1 : (⟨S1x16, .f32⟩ : BufTy).Contents (Elt F) → (⟨S10000x16, .f32⟩ : BufTy).Contents (Elt F)),
    binary main_v7 main_v9 main_v10 (addf : (⟨S10000x16, .f32⟩ : BufTy).Contents (Elt F) → (⟨S10000x16, .f32⟩ : BufTy).Contents (Elt F) → (⟨S10000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x16, .f32⟩) main_call1_v0) (broadcastInDim S10000x16 ![] bcast_S_S10000x16),
    TRef.binary (TRef.of (T := ⟨S10000x16, .f32⟩) main_v10) (TRef.of (T := ⟨S10000x16, .f32⟩) main_call1_v0) (TRef.of (T := ⟨S10000x16, .f32⟩) main_v11) maximumf,
    binary main_v11 main_arg6 main_v12 ((fun l r => Host.dotGeneral dot_S10000x16_S16x16_S10000x16_1_0_0_1_n_n none l r) : (⟨S10000x16, .f32⟩ : BufTy).Contents (Elt F) → (⟨S16x16, .f32⟩ : BufTy).Contents (Elt F) → (⟨S10000x16, .f32⟩ : BufTy).Contents (Elt F)),
    binary main_arg1 main_v12 main_v13 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    unary main_arg7 main_v14 (broadcastInDim S1x16 ![1] bcast_S16_S1x16_1 : (⟨S16, .f32⟩ : BufTy).Contents (Elt F) → (⟨S1x16, .f32⟩ : BufTy).Contents (Elt F)),
    unary main_v14 main_v15 (broadcastInDim S10000x16 ![0, 1] bcast_S1x16_S10000x16_0_1 : (⟨S1x16, .f32⟩ : BufTy).Contents (Elt F) → (⟨S10000x16, .f32⟩ : BufTy).Contents (Elt F)),
    binary main_v13 main_v15 main_v16 (addf : (⟨S10000x16, .f32⟩ : BufTy).Contents (Elt F) → (⟨S10000x16, .f32⟩ : BufTy).Contents (Elt F) → (⟨S10000x16, .f32⟩ : BufTy).Contents (Elt F)),
    TRef.nullary (TRef.of (T := ⟨S_, .f32⟩) main_call2_cst) (constant S_ .f32 0xFF800000#32),
    TRef.binary (TRef.of (T := ⟨S10000x16, .f32⟩) main_v16) (TRef.of (T := ⟨S_, .f32⟩) main_call2_cst) (TRef.of (T := ⟨S10000, .f32⟩) main_call2_v0) (fun x v => Host.reduce FloatOps.maximumf x v reducesTo_S10000x16_S10000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S10000, .f32⟩) main_call2_v1) (broadcastInDim S10000 ![] bcast_S_S10000),
    TRef.binary (TRef.of (T := ⟨S10000, .f32⟩) main_call2_v1) (TRef.of (T := ⟨S10000, .f32⟩) main_call2_v0) (TRef.of (T := ⟨S10000, .f32⟩) main_call2_v2) maximumf,
    TRef.unary (TRef.of (T := ⟨S10000, .f32⟩) main_call2_v2) (TRef.of (T := ⟨S10000x1, .f32⟩) main_call2_v3) (broadcastInDim S10000x1 ![0] bcast_S10000_S10000x1_0),
    TRef.unary (TRef.of (T := ⟨S10000x1, .f32⟩) main_call2_v3) (TRef.of (T := ⟨S10000x16, .f32⟩) main_call2_v4) (broadcastInDim S10000x16 ![0, 1] bcast_S10000x1_S10000x16_0_1),
    TRef.binary (TRef.of (T := ⟨S10000x16, .f32⟩) main_v16) (TRef.of (T := ⟨S10000x16, .f32⟩) main_call2_v4) (TRef.of (T := ⟨S10000x16, .f32⟩) main_call2_v5) subf,
    TRef.unary (TRef.of (T := ⟨S10000x16, .f32⟩) main_call2_v5) (TRef.of (T := ⟨S10000x16, .f32⟩) main_call2_v6) Host.exp,
    TRef.nullary (TRef.of (T := ⟨S_, .f32⟩) main_call2_cst_1) (constant S_ .f32 0x00000000#32),
    TRef.binary (TRef.of (T := ⟨S10000x16, .f32⟩) main_call2_v6) (TRef.of (T := ⟨S_, .f32⟩) main_call2_cst_1) (TRef.of (T := ⟨S10000, .f32⟩) main_call2_v7) (fun x v => Host.reduceAdd x v reducesTo_S10000x16_S10000_d1 h_S_),
    TRef.unary (TRef.of (T := ⟨S10000, .f32⟩) main_call2_v7) (TRef.of (T := ⟨S10000x1, .f32⟩) main_call2_v8) (broadcastInDim S10000x1 ![0] bcast_S10000_S10000x1_0),
    TRef.unary (TRef.of (T := ⟨S10000x1, .f32⟩) main_call2_v8) (TRef.of (T := ⟨S10000x1, .f32⟩) main_call2_v9) Host.log,
    TRef.unary (TRef.of (T := ⟨S10000x1, .f32⟩) main_call2_v9) (TRef.of (T := ⟨S10000x16, .f32⟩) main_call2_v10) (broadcastInDim S10000x16 ![0, 1] bcast_S10000x1_S10000x16_0_1),
    TRef.binary (TRef.of (T := ⟨S10000x16, .f32⟩) main_call2_v5) (TRef.of (T := ⟨S10000x16, .f32⟩) main_call2_v10) (TRef.of (T := ⟨S10000x16, .f32⟩) main_v17) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The result as a function of the memory at launch: the log-softmax of the three chained layers at the eight
    argument buffers. -/
def out (m : (ℓ : Loc nD τ sig) → Buf (Elt F) ℓ) (c : Dev nD) : Buf (Elt F) ((c.tc : Thread nD τ).loc main_v17) :=
  logSoftmax (logitsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)))

set_option maxHeartbeats 4000000 in
set_option maxRecDepth 1000000 in
/-- On every device, for any float values, from any memory with zero counters: every weakly fair execution of
    the program terminates with the result buffer at `out` of the launch memory and the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v17).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.RefValue.lean ====
import proofs.«160933_g45140106281004_cont_8to1c4_826_4_alg».proof.Proof.RefRun
import proofs.«160933_g45140106281004_cont_8to1c4_826_4_alg».proof.Proof.Spec
import proofs.«160933_g45140106281004_cont_8to1c4_826_4_alg».proof.Proof.LibPlainDot
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws
import Idealize.ShloMosaic.PureOps.Reduce

/-!
The reference's result on the extended reals is the specification's function.

Read at the ideal values, each stage of the reference's composed term is the stage of the same name in the
specification: a matrix product is the sum over the contraction index, a broadcast bias is the bias at the column, the
maximum with the zero matrix is the rectifier, the maximum folded from `−∞` over a row is the row's maximum, and the
sum from `0` of the exponentials is the row's sum. Chained, the three layers are `logits` and the last stage is the
log-softmax in the arrangement `(y − μ) − L`.
-/

noncomputable section

namespace Cert.ReferenceIdeal.RefValue

open Cert.ReferenceIdeal Cert.ReferenceIdeal.Gen Idealize.ShloMosaic Idealize.ShloMosaic.ValueIdx Idealize.ShloMosaic.TcCoe
  Idealize.SL.Sem
open Cert.Gcn (Mat Row)

/-! ## The three products -/

/-- `x · W₁` at the ideal values is the matrix product. -/
theorem dotXW_eq (x : Mat 10000 128) (W : Mat 128 16) : RefRun.dotXW (F := Ideal) x W = Cert.Gcn.mm x W := by
  funext j
  obtain ⟨p, q, rfl⟩ : ∃ (p : Fin 10000) (q : Fin 16), j = ix2 p q := ⟨j 0, j 1, eq_ix2 j⟩
  exact PlainDot.dotGeneral_apply (φ₁ := .f32) (φ₂ := .f32) 10000 128 16 none .single x W p q

/-- `adj · s` at the ideal values is the matrix product. -/
theorem dotAdj_eq (adj : Mat 10000 10000) (s : Mat 10000 16) : RefRun.dotAdj (F := Ideal) adj s = Cert.Gcn.mm adj s := by
  funext j
  obtain ⟨p, q, rfl⟩ : ∃ (p : Fin 10000) (q : Fin 16), j = ix2 p q := ⟨j 0, j 1, eq_ix2 j⟩
  exact PlainDot.dotGeneral_apply (φ₁ := .f32) (φ₂ := .f32) 10000 10000 16 none .single adj s p q

/-- `h · W` at the ideal values is the matrix product. -/
theorem dotHW_eq (h : Mat 10000 16) (W : Mat 16 16) : RefRun.dotHW (F := Ideal) h W = Cert.Gcn.mm h W := by
  funext j
  obtain ⟨p, q, rfl⟩ : ∃ (p : Fin 10000) (q : Fin 16), j = ix2 p q := ⟨j 0, j 1, eq_ix2 j⟩
  exact PlainDot.dotGeneral_apply (φ₁ := .f32) (φ₂ := .f32) 10000 16 16 none .single h W p q

/-! ## Bias, aggregation, rectifier -/

/-- The broadcast bias at `(p, q)` is the bias at `q`. -/
theorem biasRows_apply (b : Row 16) (p : Fin 10000) (q : Fin 16) : RefRun.biasRows (F := Ideal) b (ix2 p q) = b (ix1 q) := by
  unfold RefRun.biasRows
  refine (broadcastInDim_oneRow_apply _ _ p q).trans ?_
  refine broadcastInDim_apply ![1] _ b (ix2 (0 : Fin 1) q) (ix1 q) fun a => ?_
  match a with
  | ⟨0, _⟩ => rfl

/-- One layer at the ideal values is the specification's aggregation. -/
theorem layer_eq (adj : Mat 10000 10000) (s : Mat 10000 16) (b : Row 16) :
    RefRun.layer (F := Ideal) adj s b = Cert.Gcn.agg adj s b := by
  funext j
  obtain ⟨p, q, rfl⟩ : ∃ (p : Fin 10000) (q : Fin 16), j = ix2 p q := ⟨j 0, j 1, eq_ix2 j⟩
  show RefRun.dotAdj (F := Ideal) adj s (ix2 p q) + RefRun.biasRows (F := Ideal) b (ix2 p q) = Cert.Gcn.mm adj s (ix2 p q) + b (ix1 q)
  rw [biasRows_apply, dotAdj_eq]

/-- The maximum with the zero matrix is the rectifier. -/
theorem rectify_eq (v : Mat 10000 16) : RefRun.rectify (F := Ideal) v = Cert.Gcn.relu v := by
  funext j
  show max (v j) (broadcastInDim S10000x16 ![] bcast_S_S10000x16 (constant (F := Ideal) S_ .f32 0x00000000#32) j) = max (v j) 0
  rw [broadcastInDim_scalar_apply, constant_apply, Ideal.ofBits_zero_f32]

/-- The three layers chained are the specification's `logits`. -/
theorem logitsOf_eq (x : Mat 10000 128) (adj : Mat 10000 10000) (W1 : Mat 128 16) (b1 : Row 16) (W2 : Mat 16 16) (b2 : Row 16)
    (W3 : Mat 16 16) (b3 : Row 16) :
    RefRun.logitsOf (F := Ideal) x adj W1 b1 W2 b2 W3 b3 = Cert.Gcn.logits x adj W1 b1 W2 b2 W3 b3 := by
  unfold RefRun.logitsOf Cert.Gcn.logits
  rw [dotXW_eq, layer_eq, rectify_eq, dotHW_eq, layer_eq, rectify_eq, dotHW_eq, layer_eq]

/-! ## The log-softmax -/

/-- The pattern of `−∞`. -/
theorem ofBits_negInf : Ideal.ofBits .f32 0xFF800000#32 = (⊥ : EReal) := by simp [Ideal.ofBits, Ideal.ieee]

/-- The witness naming the index a row reduction reads: `[10000,16]` reduced over its second axis is `[10000]`. -/
theorem reduces_rows : S10000x16.Reduces [1] S10000 := by decide

/-- Row `p` with column `k` put back is `(p, k)`. -/
theorem lift_row (p : Fin 10000) (k : Fin 16) : reduces_rows.lift (ix1 p) k = ix2 p k := by
  funext c; apply Fin.ext
  fin_cases c <;> rfl

/-- A column `[10000]` made `[10000,1]` and repeated on the 16 columns reads, at `(p, q)`, the column at `p`. -/
theorem column_apply (v : (⟨1, ![10000]⟩ : Shape).Idx → EReal) (p : Fin 10000) (q : Fin 16) :
    broadcastInDim S10000x16 ![0, 1] bcast_S10000x1_S10000x16_0_1
      (broadcastInDim S10000x1 ![0] bcast_S10000_S10000x1_0 v) (ix2 p q) = v (ix1 p) := by
  refine (broadcastInDim_apply ![0, 1] _ _ (ix2 p q) (ix2 p (0 : Fin 1)) fun a => ?_).trans ?_
  · match a with
    | ⟨0, _⟩ => rfl
    | ⟨1, _⟩ => rfl
  · refine broadcastInDim_apply ![0] _ v (ix2 p (0 : Fin 1)) (ix1 p) fun a => ?_
    match a with
    | ⟨0, _⟩ => rfl

/-- The maximum folded from `−∞` over row `p` is the row's maximum. -/
theorem hostRowMax_apply (y : Mat 10000 16) (p : Fin 10000) :
    Host.reduce FloatOps.maximumf y (constant (F := Ideal) S_ .f32 0xFF800000#32) reducesTo_S10000x16_S10000_d1 h_S_ (ix1 p)
      = Cert.Gcn.rowMax y p := by
  rw [Host.reduce_eq_fold_single (FloatOps.maximumf (F := Ideal) (φ := .f32)) y _ reducesTo_S10000x16_S10000_d1 reduces_rows h_S_]
  have hf : (y ∘ reduces_rows.lift (ix1 p)) = fun k : Fin 16 => y (ix2 p k) := funext fun k => congrArg y (lift_row p k)
  rw [hf]
  show Finset.fold max (Ideal.ofBits .f32 0xFF800000#32) (fun k : Fin 16 => y (ix2 p k)) Finset.univ = Cert.Gcn.rowMax y p
  rw [ofBits_negInf]
  rfl

/-- Each row's maximum repeated along the row, at `(p, q)`. -/
theorem rowMaxB_apply (y : Mat 10000 16) (p : Fin 10000) (q : Fin 16) :
    RefRun.rowMaxB (F := Ideal) y (ix2 p q) = Cert.Gcn.rowMax y p := by
  unfold RefRun.rowMaxB
  refine (column_apply _ p q).trans ?_
  show max (broadcastInDim S10000 ![] bcast_S_S10000 (constant (F := Ideal) S_ .f32 0xFF800000#32) (ix1 p))
      (Host.reduce FloatOps.maximumf y (constant (F := Ideal) S_ .f32 0xFF800000#32) reducesTo_S10000x16_S10000_d1 h_S_ (ix1 p))
    = Cert.Gcn.rowMax y p
  rw [broadcastInDim_scalar_apply, constant_apply, ofBits_negInf, hostRowMax_apply]
  exact max_eq_right bot_le

/-- `y − μ` at `(p, q)`. -/
theorem shifted_apply (y : Mat 10000 16) (p : Fin 10000) (q : Fin 16) :
    RefRun.shifted (F := Ideal) y (ix2 p q) = y (ix2 p q) - Cert.Gcn.rowMax y p := by
  show y (ix2 p q) - RefRun.rowMaxB (F := Ideal) y (ix2 p q) = _
  rw [rowMaxB_apply]

/-- The sum from `0` of the exponentials of row `p`. -/
theorem hostRowSum_apply (y : Mat 10000 16) (p : Fin 10000) :
    Host.reduceAdd (Host.exp (RefRun.shifted (F := Ideal) y)) (constant (F := Ideal) S_ .f32 0x00000000#32)
        reducesTo_S10000x16_S10000_d1 h_S_ (ix1 p)
      = ∑ q : Fin 16, Ideal.exp (y (ix2 p q) - Cert.Gcn.rowMax y p) := by
  rw [hostReduceAdd_apply, Ideal.hostReduceAdd_single reducesTo_S10000x16_S10000_d1 reduces_rows, constant_apply,
    Ideal.ofBits_zero_f32, zero_add]
  refine Finset.sum_congr rfl fun k _ => ?_
  rw [lift_row p k]
  exact congrArg Ideal.exp (shifted_apply y p k)

/-- `log ∑ exp (y − μ)` repeated along the row, at `(p, q)`. -/
theorem logSumB_apply (y : Mat 10000 16) (p : Fin 10000) (q : Fin 16) :
    RefRun.logSumB (F := Ideal) y (ix2 p q) = Cert.Gcn.rowLse y p := by
  unfold RefRun.logSumB
  refine (broadcastInDim_apply ![0, 1] _ _ (ix2 p q) (ix2 p (0 : Fin 1)) fun a => ?_).trans ?_
  · match a with
    | ⟨0, _⟩ => rfl
    | ⟨1, _⟩ => rfl
  · show Ideal.log (broadcastInDim S10000x1 ![0] bcast_S10000_S10000x1_0
        (Host.reduceAdd (Host.exp (RefRun.shifted (F := Ideal) y)) (constant (F := Ideal) S_ .f32 0x00000000#32)
          reducesTo_S10000x16_S10000_d1 h_S_) (ix2 p (0 : Fin 1))) = Cert.Gcn.rowLse y p
    rw [broadcastInDim_apply ![0] bcast_S10000_S10000x1_0 _ (ix2 p (0 : Fin 1)) (ix1 p) (fun a => by
      match a with
      | ⟨0, _⟩ => rfl), hostRowSum_apply]
    rfl

/-- The reference's log-softmax is the specification's, in the arrangement `(y − μ) − L`. -/
theorem logSoftmax_eq (y : Mat 10000 16) : RefRun.logSoftmax (F := Ideal) y = Cert.Gcn.logSoftmaxShift y := by
  funext j
  obtain ⟨p, q, rfl⟩ : ∃ (p : Fin 10000) (q : Fin 16), j = ix2 p q := ⟨j 0, j 1, eq_ix2 j⟩
  show RefRun.shifted (F := Ideal) y (ix2 p q) - RefRun.logSumB (F := Ideal) y (ix2 p q)
    = (y (ix2 p q) - Cert.Gcn.rowMax y p) - Cert.Gcn.rowLse y p
  rw [shifted_apply, logSumB_apply]

/-! ## The result -/

/-- The reference's result, at the ideal values, is the log-softmax `(y − μ) − L` of the specification's `logits` of the
    eight arguments. -/
theorem out_eq (m : (ℓ : Loc nD τ sig) → Buf (Elt Ideal) ℓ) (c : Dev nD) :
    RefRun.out (F := Ideal) m c
      = Cert.Gcn.logSoftmaxShift (Cert.Gcn.logits (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))) := by
  unfold RefRun.out
  rw [logitsOf_eq, logSoftmax_eq]

end Cert.ReferenceIdeal.RefValue

end
-- ==== Proof.Finite.lean ====
import proofs.«160933_g45140106281004_cont_8to1c4_826_4_alg».proof.Proof.Spec

/-!
Finiteness, and the algebra of the two log-softmax arrangements.

The extended reals' sum is not cancellative at the infinities, so `y − (L + μ)` and `(y − μ) − L` agree only where
`y`, `μ` and `L` are real numbers. This file names that condition (`IsReal`), shows that sums, products, finite
sums and the rectifier keep it, carries it through the three layers to the logits, and shows that on a matrix of
real entries with a nonempty row the row maximum and the row log-sum-exp are real, whence the two arrangements
agree.
-/

noncomputable section

namespace Cert.Gcn

open Idealize.ShloMosaic Idealize.ShloMosaic.ValueIdx

/-- An extended real is a real number when it is neither infinity. -/
def IsReal (v : EReal) : Prop := v ≠ ⊥ ∧ v ≠ ⊤

/-- A coerced real number is real. -/
theorem isReal_coe (r : ℝ) : IsReal (r : EReal) := ⟨EReal.coe_ne_bot r, EReal.coe_ne_top r⟩

/-- Being real is being the coercion of a real number. -/
theorem isReal_iff_exists (v : EReal) : IsReal v ↔ ∃ r : ℝ, v = (r : EReal) := by
  constructor
  · rintro ⟨h1, h2⟩
    exact ⟨v.toReal, (EReal.coe_toReal h2 h1).symm⟩
  · rintro ⟨r, rfl⟩
    exact isReal_coe r

theorem isReal_zero : IsReal (0 : EReal) := by
  have h := isReal_coe 0
  rwa [EReal.coe_zero] at h

theorem IsReal.add {a b : EReal} (ha : IsReal a) (hb : IsReal b) : IsReal (a + b) := by
  obtain ⟨x, rfl⟩ := (isReal_iff_exists a).1 ha
  obtain ⟨y, rfl⟩ := (isReal_iff_exists b).1 hb
  rw [← EReal.coe_add]
  exact isReal_coe _

theorem IsReal.mul {a b : EReal} (ha : IsReal a) (hb : IsReal b) : IsReal (a * b) := by
  obtain ⟨x, rfl⟩ := (isReal_iff_exists a).1 ha
  obtain ⟨y, rfl⟩ := (isReal_iff_exists b).1 hb
  rw [← EReal.coe_mul]
  exact isReal_coe _

theorem IsReal.sub {a b : EReal} (ha : IsReal a) (hb : IsReal b) : IsReal (a - b) := by
  obtain ⟨x, rfl⟩ := (isReal_iff_exists a).1 ha
  obtain ⟨y, rfl⟩ := (isReal_iff_exists b).1 hb
  rw [← EReal.coe_sub]
  exact isReal_coe _

theorem isReal_max {a b : EReal} (ha : IsReal a) (hb : IsReal b) : IsReal (max a b) := by
  rcases max_choice a b with h | h
  · rw [h]; exact ha
  · rw [h]; exact hb

theorem isReal_max_zero {a : EReal} (ha : IsReal a) : IsReal (max a 0) := isReal_max ha isReal_zero

/-- A finite sum of real numbers is real. -/
theorem isReal_sum {n : Nat} (f : Fin n → EReal) (h : ∀ k, IsReal (f k)) : IsReal (∑ k : Fin n, f k) :=
  Finset.sum_induction f IsReal (fun _ _ ha hb => ha.add hb) isReal_zero (fun k _ => h k)

/-! ### The layers -/

theorem mm_real {a k b : Nat} (A : Mat a k) (B : Mat k b) (hA : ∀ i, IsReal (A i)) (hB : ∀ i, IsReal (B i)) :
    ∀ j, IsReal (mm A B j) := by
  intro j
  unfold mm
  exact isReal_sum _ (fun t => (hA _).mul (hB _))

theorem agg_real {a n h : Nat} (A : Mat a n) (S : Mat n h) (bias : Row h) (hA : ∀ i, IsReal (A i))
    (hS : ∀ i, IsReal (S i)) (hb : ∀ i, IsReal (bias i)) : ∀ j, IsReal (agg A S bias j) := by
  intro j
  unfold agg
  exact (mm_real A S hA hS j).add (hb _)

theorem relu_real {a b : Nat} (M : Mat a b) (hM : ∀ i, IsReal (M i)) : ∀ j, IsReal (relu M j) := by
  intro j
  unfold relu
  exact isReal_max_zero (hM j)

theorem logits_real (x : Mat 10000 128) (adj : Mat 10000 10000) (W1 : Mat 128 16) (b1 : Row 16) (W2 : Mat 16 16)
    (b2 : Row 16) (W3 : Mat 16 16) (b3 : Row 16) (hx : ∀ i, IsReal (x i)) (hadj : ∀ i, IsReal (adj i))
    (hW1 : ∀ i, IsReal (W1 i)) (hb1 : ∀ i, IsReal (b1 i)) (hW2 : ∀ i, IsReal (W2 i)) (hb2 : ∀ i, IsReal (b2 i))
    (hW3 : ∀ i, IsReal (W3 i)) (hb3 : ∀ i, IsReal (b3 i)) : ∀ j, IsReal (logits x adj W1 b1 W2 b2 W3 b3 j) := by
  unfold logits
  have h1 := relu_real _ (agg_real adj (mm x W1) b1 hadj (mm_real x W1 hx hW1) hb1)
  have h2 := relu_real _ (agg_real adj (mm _ W2) b2 hadj (mm_real _ W2 h1 hW2) hb2)
  exact agg_real adj (mm _ W3) b3 hadj (mm_real _ W3 h2 hW3) hb3

/-! ### The row maximum and the row log-sum-exp -/

/-- The maximum, folded from `−∞`, of a nonempty family of real numbers is real. -/
theorem isReal_fold_max {ι : Type} (s : Finset ι) (hs : s.Nonempty) (f : ι → EReal) (hf : ∀ i, IsReal (f i)) :
    IsReal (s.fold max ⊥ f) := by
  induction hs using Finset.Nonempty.cons_induction with
  | singleton a =>
    rw [Finset.fold_singleton, max_eq_left bot_le]
    exact hf a
  | cons a s h hs ih =>
    rw [Finset.fold_cons]
    exact isReal_max (hf a) ih

theorem rowMax_real {a b : Nat} (hb : 0 < b) (Y : Mat a b) (hY : ∀ j, IsReal (Y j)) (p : Fin a) :
    IsReal (rowMax Y p) := by
  unfold rowMax
  haveI : Nonempty (Fin b) := ⟨⟨0, hb⟩⟩
  exact isReal_fold_max _ Finset.univ_nonempty _ (fun q => hY _)

/-- A positive real number, coerced. -/
def IsPos (v : EReal) : Prop := ∃ r : ℝ, 0 < r ∧ v = (r : EReal)

theorem IsPos.add {a b : EReal} (ha : IsPos a) (hb : IsPos b) : IsPos (a + b) := by
  obtain ⟨x, hx, rfl⟩ := ha
  obtain ⟨y, hy, rfl⟩ := hb
  exact ⟨x + y, add_pos hx hy, (EReal.coe_add x y).symm⟩

/-- The exponential of a difference of real numbers is a positive real number. -/
theorem isPos_exp_sub {u v : EReal} (hu : IsReal u) (hv : IsReal v) : IsPos (Ideal.exp (u - v)) := by
  obtain ⟨x, rfl⟩ := (isReal_iff_exists u).1 hu
  obtain ⟨y, rfl⟩ := (isReal_iff_exists v).1 hv
  rw [← EReal.coe_sub, Ideal.exp_coe]
  exact ⟨_, Real.exp_pos _, rfl⟩

/-- The logarithm of a positive real number is real. -/
theorem IsPos.log_real {v : EReal} (hv : IsPos v) : IsReal (Ideal.log v) := by
  obtain ⟨r, hr, rfl⟩ := hv
  rw [Ideal.log_coe, if_neg (not_le.2 hr)]
  exact isReal_coe _

theorem rowLse_real {a b : Nat} (hb : 0 < b) (Y : Mat a b) (hY : ∀ j, IsReal (Y j)) (p : Fin a) :
    IsReal (rowLse Y p) := by
  unfold rowLse
  haveI : Nonempty (Fin b) := ⟨⟨0, hb⟩⟩
  have hμ := rowMax_real hb Y hY p
  exact IsPos.log_real
    (Finset.sum_induction_nonempty _ IsPos (fun _ _ ha hb => ha.add hb) Finset.univ_nonempty
      (fun q _ => isPos_exp_sub (hY _) hμ))

/-! ### The two arrangements -/

/-- On real numbers `y − (L + μ) = (y − μ) − L`. -/
theorem sub_add_eq_sub_sub_of_real {y L μ : EReal} (hy : IsReal y) (hL : IsReal L) (hμ : IsReal μ) :
    y - (L + μ) = (y - μ) - L := by
  obtain ⟨y', rfl⟩ := (isReal_iff_exists y).1 hy
  obtain ⟨L', rfl⟩ := (isReal_iff_exists L).1 hL
  obtain ⟨μ', rfl⟩ := (isReal_iff_exists μ).1 hμ
  rw [← EReal.coe_add, ← EReal.coe_sub, ← EReal.coe_sub, ← EReal.coe_sub]
  congr 1
  ring

theorem logSoftmax_arrangements {a b : Nat} (hb : 0 < b) (Y : Mat a b) (hY : ∀ j, IsReal (Y j)) :
    logSoftmaxSum Y = logSoftmaxShift Y := by
  funext j
  unfold logSoftmaxSum logSoftmaxShift
  exact sub_add_eq_sub_sub_of_real (hY j) (rowLse_real hb Y hY (j 0)) (rowMax_real hb Y hY (j 0))

theorem out_arrangements (x : Mat 10000 128) (adj : Mat 10000 10000) (W1 : Mat 128 16) (b1 : Row 16)
    (W2 : Mat 16 16) (b2 : Row 16) (W3 : Mat 16 16) (b3 : Row 16) (hx : ∀ i, IsReal (x i))
    (hadj : ∀ i, IsReal (adj i)) (hW1 : ∀ i, IsReal (W1 i)) (hb1 : ∀ i, IsReal (b1 i)) (hW2 : ∀ i, IsReal (W2 i))
    (hb2 : ∀ i, IsReal (b2 i)) (hW3 : ∀ i, IsReal (W3 i)) (hb3 : ∀ i, IsReal (b3 i)) :
    logSoftmaxSum (logits x adj W1 b1 W2 b2 W3 b3) = logSoftmaxShift (logits x adj W1 b1 W2 b2 W3 b3) :=
  logSoftmax_arrangements (by norm_num) _ (logits_real x adj W1 b1 W2 b2 W3 b3 hx hadj hW1 hb1 hW2 hb2 hW3 hb3)

end Cert.Gcn

end
-- ==== Proof.PreFinite.lean ====
import proofs.«160933_g45140106281004_cont_8to1c4_826_4_alg».proof.Defs
import proofs.«160933_g45140106281004_cont_8to1c4_826_4_alg».proof.Proof.Gen.Pre_finite_inputs
import proofs.«160933_g45140106281004_cont_8to1c4_826_4_alg».proof.Proof.Finite
import Idealize.ShloMosaic.Lib.ReduceAll
import Idealize.ShloMosaic.Lib.ValueIdx

/-!
From the precondition to finiteness of the arguments.

The precondition is the conjunction, over the eight argument arrays, of "every entry `x` has `|x| < +∞`": each
conjunct an `and`-reduction to one bit of the entrywise comparison `max x (−x) < +∞`. A reduction by `and` that came
out `1` met only `1`s, and `max x (−x) < ⊤` on the extended reals says `x` is neither `⊤` nor `⊥`: a real number.
-/

noncomputable section

namespace Cert.KernelIdeal.PreFinite

open Idealize.ShloMosaic Idealize.ShloMosaic.ValueIdx Idealize.SL.Sem

/-- The rank-0 shape has one index. -/
instance : Subsingleton (⟨0, ![]⟩ : Shape).Idx := ⟨fun a b => funext fun d => d.elim0⟩

/-- `|x| < +∞`, as the comparison's bit, says `x` is a real number. -/
theorem isReal_of_abs_lt_inf (x : Ideal .f32)
    (h : FloatOps.cmpf .olt (FloatOps.hostAbsf x) (FloatOps.ofBits (F := Ideal) .f32 0x7F800000#32) = 1#1) :
    Cert.Gcn.IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  refine ⟨?_, ne_of_lt hlt.1⟩
  intro hb
  rw [hb] at hlt
  simp at hlt

/-- One `all (|a| < +∞)` bit equal to `1`: every entry of `a` is a real number. -/
theorem all_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1)
    (e : Host.reduce IntOp.andi
        (cmpf .olt (Host.absf a) (broadcastInDim s ![] hb (constant (⟨0, ![]⟩ : Shape) .f32 0x7F800000#32)))
        init hr hu ix0 = 1#1) :
    ∀ i, Cert.Gcn.IsReal (a i) := by
  intro i
  have h1 := Host.reduce_andi_all _ init hr hu ix0 e i
  rw [cmpf_apply] at h1
  exact isReal_of_abs_lt_inf (a i) h1

/-- Under the precondition every entry of every argument array is a real number. -/
theorem args_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Gcn.IsReal (m ((c.tc : Thread Cert.KernelIdeal.nD Cert.KernelIdeal.τ).loc Cert.KernelIdeal.main_arg0) i))
      ∧ (∀ i, Cert.Gcn.IsReal (m ((c.tc : Thread Cert.KernelIdeal.nD Cert.KernelIdeal.τ).loc Cert.KernelIdeal.main_arg1) i))
      ∧ (∀ i, Cert.Gcn.IsReal (m ((c.tc : Thread Cert.KernelIdeal.nD Cert.KernelIdeal.τ).loc Cert.KernelIdeal.main_arg2) i))
      ∧ (∀ i, Cert.Gcn.IsReal (m ((c.tc : Thread Cert.KernelIdeal.nD Cert.KernelIdeal.τ).loc Cert.KernelIdeal.main_arg3) i))
      ∧ (∀ i, Cert.Gcn.IsReal (m ((c.tc : Thread Cert.KernelIdeal.nD Cert.KernelIdeal.τ).loc Cert.KernelIdeal.main_arg4) i))
      ∧ (∀ i, Cert.Gcn.IsReal (m ((c.tc : Thread Cert.KernelIdeal.nD Cert.KernelIdeal.τ).loc Cert.KernelIdeal.main_arg5) i))
      ∧ (∀ i, Cert.Gcn.IsReal (m ((c.tc : Thread Cert.KernelIdeal.nD Cert.KernelIdeal.τ).loc Cert.KernelIdeal.main_arg6) i))
      ∧ (∀ i, Cert.Gcn.IsReal (m ((c.tc : Thread Cert.KernelIdeal.nD Cert.KernelIdeal.τ).loc Cert.KernelIdeal.main_arg7) i)) := by
  have h0 := congrFun (h c) ix0
  dsimp only [Cert.Pre_finite_inputs.fn, Cert.Pre_finite_inputs.fn_part1, Cert.Pre_finite_inputs.fn_part2] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ _ _ e0, all_real _ _ _ _ _ e1, all_real _ _ _ _ _ e2, all_real _ _ _ _ _ e3,
    all_real _ _ _ _ _ e4, all_real _ _ _ _ _ e5, all_real _ _ _ _ _ e6, all_real _ _ _ _ _ e7⟩

end Cert.KernelIdeal.PreFinite

end
-- ==== Proof.lean ====
/-
  A three-layer graph convolution over a dense adjacency, with a row-wise log-softmax, as four kernel launches against
  its plain formulation on the host.

  Both programs compute, on the extended reals,

    y = A · (relu (A · (relu (A · (x · W₁) + b₁) · W₂) + b₂) · W₃) + b₃,     out (p, q) = y (p, q) − logsumexp_q y (p, ·),

  the log-sum-exp of a row taken through the row's maximum μ as log ∑ exp (y − μ) + μ. The kernel forms the product
  x · W₁ in one launch; each hidden layer in one launch over 25 slabs of 400 rows of A (the first of them also keeping a
  copy of A in a narrower float format, which at exact values is A); and the last layer with the log-softmax in a
  fourth. A matrix product into a zero accumulator, in slabs of rows or whole, is the same sum of products as the
  host's; a change of float format is the identity; so the two programs have the same logits y, entry by entry, with no
  condition on the inputs. They differ in how the last subtraction is arranged — the kernel takes y − (L + μ), the host
  (y − μ) − L, with L = log ∑ exp (y − μ) — and these agree exactly where y, μ and L are real numbers. That is where the
  precondition enters: every input is finite, sums and products and maxima of finitely many reals are real, so every
  logit is real, so are each row's maximum, the positive sum of exponentials and its logarithm.
-/
import proofs.«160933_g45140106281004_cont_8to1c4_826_4_alg».proof.Defs
import proofs.«160933_g45140106281004_cont_8to1c4_826_4_alg».proof.Proof.Gen.Kernel
import proofs.«160933_g45140106281004_cont_8to1c4_826_4_alg».proof.Proof.Gen.Kernel.Skeleton
import proofs.«160933_g45140106281004_cont_8to1c4_826_4_alg».proof.Proof.Gen.Kernel.Launch
import proofs.«160933_g45140106281004_cont_8to1c4_826_4_alg».proof.Proof.Gen.Kernel.Points
import proofs.«160933_g45140106281004_cont_8to1c4_826_4_alg».proof.Proof.Gen.Kernel.Frame
import proofs.«160933_g45140106281004_cont_8to1c4_826_4_alg».proof.Proof.Gen.KernelIdeal
import proofs.«160933_g45140106281004_cont_8to1c4_826_4_alg».proof.Proof.Gen.KernelIdeal.Skeleton
import proofs.«160933_g45140106281004_cont_8to1c4_826_4_alg».proof.Proof.Gen.KernelIdeal.Launch
import proofs.«160933_g45140106281004_cont_8to1c4_826_4_alg».proof.Proof.Gen.KernelIdeal.Points
import proofs.«160933_g45140106281004_cont_8to1c4_826_4_alg».proof.Proof.Gen.KernelIdeal.Frame
import proofs.«160933_g45140106281004_cont_8to1c4_826_4_alg».proof.Proof.Gen.ReferenceIdeal
import proofs.«160933_g45140106281004_cont_8to1c4_826_4_alg».proof.Proof.Gen.Pre_finite_inputs
import Idealize.ShloMosaic.Adequacy
import Idealize.ShloMosaic.Init
import proofs.«160933_g45140106281004_cont_8to1c4_826_4_alg».proof.Proof.KernelRun
import proofs.«160933_g45140106281004_cont_8to1c4_826_4_alg».proof.Proof.KernelValue
import proofs.«160933_g45140106281004_cont_8to1c4_826_4_alg».proof.Proof.RefRun
import proofs.«160933_g45140106281004_cont_8to1c4_826_4_alg».proof.Proof.RefValue
import proofs.«160933_g45140106281004_cont_8to1c4_826_4_alg».proof.Proof.Finite
import proofs.«160933_g45140106281004_cont_8to1c4_826_4_alg».proof.Proof.PreFinite

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Nothing was rewritten on the way to exact values. -/
theorem preserves : Cert.preserves_Kernel_KernelIdeal := trivial

/-- From memories agreeing on the arguments both programs end with the same result: the kernel's is
    `y − (L + μ)` of the logits of its arguments, the reference's `(y − μ) − L` of the logits of its own, the arguments
    agree, and the two arrangements agree because finite inputs make every logit real. -/
theorem algebraic : Cert.algebraic_KernelIdeal_ReferenceIdeal := by
  intro m ρ m' ρ' hpre hagree
  refine ⟨fun c => Cert.Gcn.logSoftmaxSum (Cert.Gcn.logits (Cert.KernelIdeal.KernelValue.X m c) (Cert.KernelIdeal.KernelValue.A m c)
      (Cert.KernelIdeal.KernelValue.W₁ m c) (Cert.KernelIdeal.KernelValue.B₁ m c) (Cert.KernelIdeal.KernelValue.W₂ m c)
      (Cert.KernelIdeal.KernelValue.B₂ m c) (Cert.KernelIdeal.KernelValue.W₃ m c) (Cert.KernelIdeal.KernelValue.B₃ m c)), ?_, ?_⟩
  · exact (θ_run Cert.KernelIdeal.defs _ _).mono
      (fun _ h c => ⟨(h c).1.trans (Cert.KernelIdeal.KernelValue.result m ρ c), (h c).2⟩)
      (Cert.KernelIdeal.KernelRun.run m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7⟩ := Cert.KernelIdeal.PreFinite.args_real m hpre c
    obtain ⟨a0, a1, a2, a3, a4, a5, a6, a7⟩ := hagree c
    rw [Cert.ReferenceIdeal.RefValue.out_eq, a0, a1, a2, a3, a4, a5, a6, a7]
    exact (Cert.Gcn.out_arrangements _ _ _ _ _ _ _ _ h0 h1 h2 h3 h4 h5 h6 h7).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
